-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x32768x1 : Shape := ⟨3, ![64, 32768, 1]⟩
abbrev S64x32768x3 : Shape := ⟨3, ![64, 32768, 3]⟩
abbrev S64x32768x4 : Shape := ⟨3, ![64, 32768, 4]⟩
abbrev S64x32768x9 : Shape := ⟨3, ![64, 32768, 9]⟩
abbrev S_ : Shape := ⟨0, ![]⟩

class Facts : Prop where
  bcast_S_S64x32768x1 : S_.BroadcastsInDim S64x32768x1 (![] : Fin 0 → Fin S64x32768x1.rank)
  reducesTo_S64x32768x1_S_d0_1_2 : S64x32768x1.ReducesTo [0, 1, 2] S_
  h_S_ : 0 < S_.numel
  bcast_S_S64x32768x3 : S_.BroadcastsInDim S64x32768x3 (![] : Fin 0 → Fin S64x32768x3.rank)
  reducesTo_S64x32768x3_S_d0_1_2 : S64x32768x3.ReducesTo [0, 1, 2] S_
  bcast_S_S64x32768x4 : S_.BroadcastsInDim S64x32768x4 (![] : Fin 0 → Fin S64x32768x4.rank)
  reducesTo_S64x32768x4_S_d0_1_2 : S64x32768x4.ReducesTo [0, 1, 2] S_
  bcast_S_S64x32768x9 : S_.BroadcastsInDim S64x32768x9 (![] : Fin 0 → Fin S64x32768x9.rank)
  reducesTo_S64x32768x9_S_d0_1_2 : S64x32768x9.ReducesTo [0, 1, 2] S_

variable [Facts]

def fn_part1 {F : FTy → Type} [FloatOps F] (main_arg4 : FVec F S64x32768x4 .f32) (main_arg5 : IVec S64x32768x9 32) (main_v13 : IVec S_ 1) (main_v16 : IVec S64x32768x3 1) : IVec S_ 1 :=
  let main_c_5 : IVec S_ 1 := constantI S_ 1 1#1
  let main_v17 : IVec S_ 1 := (fun x v => Host.reduce IntOp.andi x v reducesTo_S64x32768x3_S_d0_1_2 h_S_) main_v16 main_c_5
  let main_v18 : IVec S_ 1 := andi main_v13 main_v17
  let main_v19 : FVec F S64x32768x4 .f32 := Host.absf main_arg4
  let main_cst_6 : FVec F S_ .f32 := constant S_ .f32 0x7F800000#32
  let main_v20 : FVec F S64x32768x4 .f32 := broadcastInDim S64x32768x4 ![] bcast_S_S64x32768x4 main_cst_6
  let main_v21 : IVec S64x32768x4 1 := cmpf .olt main_v19 main_v20
  let main_c_7 : IVec S_ 1 := constantI S_ 1 1#1
  let main_v22 : IVec S_ 1 := (fun x v => Host.reduce IntOp.andi x v reducesTo_S64x32768x4_S_d0_1_2 h_S_) main_v21 main_c_7
  let main_v23 : IVec S_ 1 := andi main_v18 main_v22
  let main_c_8 : IVec S_ 32 := constantI S_ 32 0#32
  let main_v24 : IVec S64x32768x9 32 := broadcastInDim S64x32768x9 ![] bcast_S_S64x32768x9 main_c_8
  let main_v25 : IVec S64x32768x9 1 := cmpi .eq main_arg5 main_v24
  let main_c_9 : IVec S_ 32 := constantI S_ 32 1#32
  let main_v26 : IVec S64x32768x9 32 := broadcastInDim S64x32768x9 ![] bcast_S_S64x32768x9 main_c_9
  let main_v27 : IVec S64x32768x9 1 := cmpi .eq main_arg5 main_v26
  let main_v28 : IVec S64x32768x9 1 := ori main_v25 main_v27
  let main_c_10 : IVec S_ 1 := constantI S_ 1 1#1
  let main_v29 : IVec S_ 1 := (fun x v => Host.reduce IntOp.andi x v reducesTo_S64x32768x9_S_d0_1_2 h_S_) main_v28 main_c_10
  let main_v30 : IVec S_ 1 := andi main_v23 main_v29
  main_v30

def fn {F : FTy → Type} [FloatOps F] (main_arg0 : FVec F S64x32768x1 .f32) (main_arg1 : FVec F S64x32768x1 .f32) (main_arg2 : FVec F S64x32768x1 .f32) (main_arg3 : FVec F S64x32768x3 .f32) (main_arg4 : FVec F S64x32768x4 .f32) (main_arg5 : IVec S64x32768x9 32) : IVec S_ 1 :=
  let main_v0 : FVec F S64x32768x1 .f32 := Host.absf main_arg0
  let main_cst : FVec F S_ .f32 := constant S_ .f32 0x7F800000#32
  let main_v1 : FVec F S64x32768x1 .f32 := broadcastInDim S64x32768x1 ![] bcast_S_S64x32768x1 main_cst
  let main_v2 : IVec S64x32768x1 1 := cmpf .olt main_v0 main_v1
  let main_c : IVec S_ 1 := constantI S_ 1 1#1
  let main_v3 : IVec S_ 1 := (fun x v => Host.reduce IntOp.andi x v reducesTo_S64x32768x1_S_d0_1_2 h_S_) main_v2 main_c
  let main_v4 : FVec F S64x32768x1 .f32 := Host.absf main_arg1
  let main_cst_0 : FVec F S_ .f32 := constant S_ .f32 0x7F800000#32
  let main_v5 : FVec F S64x32768x1 .f32 := broadcastInDim S64x32768x1 ![] bcast_S_S64x32768x1 main_cst_0
  let main_v6 : IVec S64x32768x1 1 := cmpf .olt main_v4 main_v5
  let main_c_1 : IVec S_ 1 := constantI S_ 1 1#1
  let main_v7 : IVec S_ 1 := (fun x v => Host.reduce IntOp.andi x v reducesTo_S64x32768x1_S_d0_1_2 h_S_) main_v6 main_c_1
  let main_v8 : IVec S_ 1 := andi main_v3 main_v7
  let main_v9 : FVec F S64x32768x1 .f32 := Host.absf main_arg2
  let main_cst_2 : FVec F S_ .f32 := constant S_ .f32 0x7F800000#32
  let main_v10 : FVec F S64x32768x1 .f32 := broadcastInDim S64x32768x1 ![] bcast_S_S64x32768x1 main_cst_2
  let main_v11 : IVec S64x32768x1 1 := cmpf .olt main_v9 main_v10
  let main_c_3 : IVec S_ 1 := constantI S_ 1 1#1
  let main_v12 : IVec S_ 1 := (fun x v => Host.reduce IntOp.andi x v reducesTo_S64x32768x1_S_d0_1_2 h_S_) main_v11 main_c_3
  let main_v13 : IVec S_ 1 := andi main_v8 main_v12
  let main_v14 : FVec F S64x32768x3 .f32 := Host.absf main_arg3
  let main_cst_4 : FVec F S_ .f32 := constant S_ .f32 0x7F800000#32
  let main_v15 : FVec F S64x32768x3 .f32 := broadcastInDim S64x32768x3 ![] bcast_S_S64x32768x3 main_cst_4
  let main_v16 : IVec S64x32768x3 1 := cmpf .olt main_v14 main_v15
  fn_part1 (F := F) main_arg4 main_arg5 main_v13 main_v16
-- ==== Kernel.lean ====
abbrev S64x32768x1 : Shape := ⟨3, ![64, 32768, 1]⟩
abbrev S64x32768x3 : Shape := ⟨3, ![64, 32768, 3]⟩
abbrev S64x32768x4 : Shape := ⟨3, ![64, 32768, 4]⟩
abbrev S64x32768x9 : Shape := ⟨3, ![64, 32768, 9]⟩
abbrev S2x1x1 : Shape := ⟨3, ![2, 1, 1]⟩
abbrev S32x128x1 : Shape := ⟨3, ![32, 128, 1]⟩
abbrev S32x128x3 : Shape := ⟨3, ![32, 128, 3]⟩
abbrev S32x128x4 : Shape := ⟨3, ![32, 128, 4]⟩
abbrev S32x128x9 : Shape := ⟨3, ![32, 128, 9]⟩
abbrev S1x1x1 : Shape := ⟨3, ![1, 1, 1]⟩
abbrev S32x128 : Shape := ⟨2, ![32, 128]⟩
abbrev S32 : Shape := ⟨1, ![32]⟩
abbrev S32x1 : Shape := ⟨2, ![32, 1]⟩
abbrev S1 : Shape := ⟨1, ![1]⟩
abbrev S1x1 : Shape := ⟨2, ![1, 1]⟩
abbrev S_ : Shape := ⟨0, ![]⟩

abbrev nBuf : Space → Nat
  | .hbm => 12
  | .vmem => 15
  | .smem => 0
  | _ => 0

abbrev bufTy : (tb : Table) → Fin (tcTables nBuf tb) → BufTy
  | .hbm, ⟨0, _⟩ => ⟨S64x32768x1, .f32⟩
  | .hbm, ⟨1, _⟩ => ⟨S64x32768x1, .f32⟩
  | .hbm, ⟨2, _⟩ => ⟨S64x32768x1, .f32⟩
  | .hbm, ⟨3, _⟩ => ⟨S64x32768x3, .f32⟩
  | .hbm, ⟨4, _⟩ => ⟨S64x32768x4, .f32⟩
  | .hbm, ⟨5, _⟩ => ⟨S64x32768x9, .i32⟩
  | .hbm, ⟨6, _⟩ => ⟨S2x1x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1, .f32⟩
  | .local _ .vmem, ⟨0, _⟩ => ⟨S32x128x1, .f32⟩
  | .local _ .vmem, ⟨1, _⟩ => ⟨S32x128x1, .f32⟩
  | .local _ .vmem, ⟨2, _⟩ => ⟨S32x128x1, .f32⟩
  | .local _ .vmem, ⟨3, _⟩ => ⟨S32x128x1, .f32⟩
  | .local _ .vmem, ⟨4, _⟩ => ⟨S32x128x1, .f32⟩
  | .local _ .vmem, ⟨5, _⟩ => ⟨S32x128x1, .f32⟩
  | .local _ .vmem, ⟨6, _⟩ => ⟨S32x128x3, .f32⟩
  | .local _ .vmem, ⟨7, _⟩ => ⟨S32x128x3, .f32⟩
  | .local _ .vmem, ⟨8, _⟩ => ⟨S32x128x4, .f32⟩
  | .local _ .vmem, ⟨9, _⟩ => ⟨S32x128x4, .f32⟩
  | .local _ .vmem, ⟨10, _⟩ => ⟨S32x128x9, .i32⟩
  | .local _ .vmem, ⟨11, _⟩ => ⟨S32x128x9, .i32⟩
  | .local _ .vmem, ⟨12, _⟩ => ⟨S1x1x1, .f32⟩
  | .local _ .vmem, ⟨13, _⟩ => ⟨S1x1x1, .f32⟩
  | .local _ .vmem, ⟨14, _⟩ => ⟨S1x1x1, .f32⟩
  | _, _ => ⟨S64x32768x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 256], ![false, false]⟩

def k0_cond2 (i : grid0.Coords) : BitVec 1 :=
  let arg1 : BitVec 32 := BitVec.ofNat 32 (i 1).val
  let c255_i32 : BitVec 32 := 255#32
  let v125 : BitVec 1 := Scalar.cmpi .eq arg1 c255_i32
  let v126 : BitVec 32 := Scalar.extui v125
  let c0_i32_50 : BitVec 32 := 0#32
  let v127 : BitVec 1 := Scalar.cmpi .ne v126 c0_i32_50
  v127

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x128x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x128x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x128x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x128x9 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  inb_S32x128x1_S32x128x1_0_0_0 : ∀ a, (![0, 0, 0] : Fin 3 → Nat) a + S32x128x1.size a ≤ S32x128x1.size a
  h_S32x128x1 : 0 < S32x128x1.numel
  shapeCasts_S32x128x1_S32x128 : S32x128x1.ShapeCasts S32x128
  inb_S32x128x3_S32x128x3_0_0_0 : ∀ a, (![0, 0, 0] : Fin 3 → Nat) a + S32x128x3.size a ≤ S32x128x3.size a
  h_S32x128x3 : 0 < S32x128x3.numel
  inb_S32x128x4_S32x128x4_0_0_0 : ∀ a, (![0, 0, 0] : Fin 3 → Nat) a + S32x128x4.size a ≤ S32x128x4.size a
  h_S32x128x4 : 0 < S32x128x4.numel
  inb_S32x128x9_S32x128x9_0_0_0 : ∀ a, (![0, 0, 0] : Fin 3 → Nat) a + S32x128x9.size a ≤ S32x128x9.size a
  h_S32x128x9 : 0 < S32x128x9.numel
  slices_S32x128x9_o0_0_0_S32x128x1 : S32x128x9.Slices ![0, 0, 0] S32x128x1
  slices_S32x128x9_o0_0_2_S32x128x1 : S32x128x9.Slices ![0, 0, 2] S32x128x1
  slices_S32x128x9_o0_0_3_S32x128x1 : S32x128x9.Slices ![0, 0, 3] S32x128x1
  slices_S32x128x9_o0_0_4_S32x128x1 : S32x128x9.Slices ![0, 0, 4] S32x128x1
  slices_S32x128x9_o0_0_5_S32x128x1 : S32x128x9.Slices ![0, 0, 5] S32x128x1
  slices_S32x128x9_o0_0_6_S32x128x1 : S32x128x9.Slices ![0, 0, 6] S32x128x1
  slices_S32x128x9_o0_0_7_S32x128x1 : S32x128x9.Slices ![0, 0, 7] S32x128x1
  reduces_S32x128x9_S32x128 : S32x128x9.Reduces [2] S32x128
  slices_S32x128x3_o0_0_0_S32x128x1 : S32x128x3.Slices ![0, 0, 0] S32x128x1
  slices_S32x128x3_o0_0_1_S32x128x1 : S32x128x3.Slices ![0, 0, 1] S32x128x1
  slices_S32x128x3_o0_0_2_S32x128x1 : S32x128x3.Slices ![0, 0, 2] S32x128x1
  slices_S32x128x4_o0_0_0_S32x128x1 : S32x128x4.Slices ![0, 0, 0] S32x128x1
  slices_S32x128x4_o0_0_1_S32x128x1 : S32x128x4.Slices ![0, 0, 1] S32x128x1
  slices_S32x128x4_o0_0_2_S32x128x1 : S32x128x4.Slices ![0, 0, 2] S32x128x1
  slices_S32x128x4_o0_0_3_S32x128x1 : S32x128x4.Slices ![0, 0, 3] S32x128x1
  reduces_S32x128_S32 : S32x128.Reduces [1] S32
  shapeCasts_S32_S32x1 : S32.ShapeCasts S32x1
  reduces_S32x1_S1 : S32x1.Reduces [0] S1
  shapeCasts_S1_S1x1 : S1.ShapeCasts S1x1
  shapeCasts_S1x1_S1x1x1 : S1x1.ShapeCasts S1x1x1
  reducesTo_S2x1x1_S_d0_1_2 : S2x1x1.ReducesTo [0, 1, 2] S_
  h_S_ : 0 < S_.numel
  shapeCasts_S_S1 : S_.ShapeCasts S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128x1.size a ≤ S64x32768x1.size a
  hwx0_0 : ∀ i : grid0.Coords, EltTy.bits .f32 = 32 ∨ (Rect.block (s := S64x32768x1) S32x128x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x128x1.size a ≤ S64x32768x1.size a
  hwx0_1 : ∀ i : grid0.Coords, EltTy.bits .f32 = 32 ∨ (Rect.block (s := S64x32768x1) S32x128x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x128x1.size a ≤ S64x32768x1.size a
  hwx0_2 : ∀ i : grid0.Coords, EltTy.bits .f32 = 32 ∨ (Rect.block (s := S64x32768x1) S32x128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x128x3.size a ≤ S64x32768x3.size a
  hwx0_3 : ∀ i : grid0.Coords, EltTy.bits .f32 = 32 ∨ (Rect.block (s := S64x32768x3) S32x128x3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x128x4.size a ≤ S64x32768x4.size a
  hwx0_4 : ∀ i : grid0.Coords, EltTy.bits .f32 = 32 ∨ (Rect.block (s := S64x32768x4) S32x128x4.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x128x9.size a ≤ S64x32768x9.size a
  hwx0_5 : ∀ i : grid0.Coords, EltTy.bits .i32 = 32 ∨ (Rect.block (s := S64x32768x9) S32x128x9.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1.size a ≤ S2x1x1.size a
  hwx0_6 : ∀ i : grid0.Coords, EltTy.bits .f32 = 32 ∨ (Rect.block (s := S2x1x1) S1x1x1.size (cc0_transform_6 i) (hinb0_6 i)).WholeWords (EltTy.packing .f32)

variable [Facts₀]

abbrev win0_0 : Pipeline.Window sig grid0 :=
  Pipeline.Window.ofSpec (Memref.whole main_arg0) S32x128x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x128x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32x128x4.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32x128x9.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x1x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S64x32768x1 : Shape := ⟨3, ![64, 32768, 1]⟩
abbrev S64x32768x3 : Shape := ⟨3, ![64, 32768, 3]⟩
abbrev S64x32768x4 : Shape := ⟨3, ![64, 32768, 4]⟩
abbrev S64x32768x9 : Shape := ⟨3, ![64, 32768, 9]⟩
abbrev S_ : Shape := ⟨0, ![]⟩
abbrev S64x32768 : Shape := ⟨2, ![64, 32768]⟩
abbrev S64x32768x1x1 : Shape := ⟨4, ![64, 32768, 1, 1]⟩
abbrev S1 : Shape := ⟨1, ![1]⟩
abbrev S1x1x1x1 : Shape := ⟨4, ![1, 1, 1, 1]⟩

abbrev nBuf : Space → Nat
  | .hbm => 201
  | .vmem => 0
  | .smem => 0
  | _ => 0

abbrev hbmTy0_0 (i : Nat) : BufTy := match i % 128 with
  | 0 => ⟨S64x32768x1, .f32⟩
  | 1 => ⟨S64x32768x1, .f32⟩
  | 2 => ⟨S64x32768x1, .f32⟩
  | 3 => ⟨S64x32768x3, .f32⟩
  | 4 => ⟨S64x32768x4, .f32⟩
  | 5 => ⟨S64x32768x9, .i32⟩
  | 6 => ⟨S_, .i32⟩
  | 7 => ⟨S64x32768x9, .i32⟩
  | 8 => ⟨S64x32768x9, .i1⟩
  | 9 => ⟨S_, .i1⟩
  | 10 => ⟨S64x32768, .i1⟩
  | 11 => ⟨S64x32768, .f32⟩
  | 12 => ⟨S64x32768x1, .i32⟩
  | 13 => ⟨S64x32768, .i32⟩
  | 14 => ⟨S_, .i32⟩
  | 15 => ⟨S64x32768, .i32⟩
  | 16 => ⟨S64x32768, .i1⟩
  | 17 => ⟨S_, .f32⟩
  | 18 => ⟨S_, .f32⟩
  | 19 => ⟨S64x32768, .f32⟩
  | 20 => ⟨S64x32768, .f32⟩
  | 21 => ⟨S64x32768, .f32⟩
  | 22 => ⟨S64x32768x1, .i32⟩
  | 23 => ⟨S64x32768, .i32⟩
  | 24 => ⟨S_, .i32⟩
  | 25 => ⟨S64x32768, .i32⟩
  | 26 => ⟨S64x32768, .i1⟩
  | 27 => ⟨S_, .f32⟩
  | 28 => ⟨S_, .f32⟩
  | 29 => ⟨S64x32768, .f32⟩
  | 30 => ⟨S64x32768, .f32⟩
  | 31 => ⟨S64x32768, .f32⟩
  | 32 => ⟨S64x32768x1, .i32⟩
  | 33 => ⟨S64x32768, .i32⟩
  | 34 => ⟨S_, .i32⟩
  | 35 => ⟨S64x32768, .i32⟩
  | 36 => ⟨S64x32768, .i1⟩
  | 37 => ⟨S64x32768x1, .i32⟩
  | 38 => ⟨S64x32768, .i32⟩
  | 39 => ⟨S_, .i32⟩
  | 40 => ⟨S64x32768, .i32⟩
  | 41 => ⟨S64x32768, .i1⟩
  | 42 => ⟨S_, .i32⟩
  | 43 => ⟨S_, .i32⟩
  | 44 => ⟨S64x32768, .i32⟩
  | 45 => ⟨S64x32768, .i32⟩
  | 46 => ⟨S64x32768, .i32⟩
  | 47 => ⟨S_, .i32⟩
  | 48 => ⟨S64x32768, .i32⟩
  | 49 => ⟨S64x32768, .i32⟩
  | 50 => ⟨S64x32768x1, .i32⟩
  | 51 => ⟨S64x32768, .i32⟩
  | 52 => ⟨S_, .i32⟩
  | 53 => ⟨S64x32768, .i32⟩
  | 54 => ⟨S64x32768, .i1⟩
  | 55 => ⟨S64x32768x1, .i32⟩
  | 56 => ⟨S64x32768, .i32⟩
  | 57 => ⟨S_, .i32⟩
  | 58 => ⟨S64x32768, .i32⟩
  | 59 => ⟨S64x32768, .i1⟩
  | 60 => ⟨S64x32768x1, .i32⟩
  | 61 => ⟨S64x32768, .i32⟩
  | 62 => ⟨S_, .i32⟩
  | 63 => ⟨S64x32768, .i32⟩
  | 64 => ⟨S64x32768, .i1⟩
  | 65 => ⟨S_, .i32⟩
  | 66 => ⟨S_, .i32⟩
  | 67 => ⟨S64x32768, .i32⟩
  | 68 => ⟨S64x32768, .i32⟩
  | 69 => ⟨S64x32768, .i32⟩
  | 70 => ⟨S_, .i32⟩
  | 71 => ⟨S64x32768, .i32⟩
  | 72 => ⟨S64x32768, .i32⟩
  | 73 => ⟨S_, .i32⟩
  | 74 => ⟨S64x32768, .i32⟩
  | 75 => ⟨S64x32768, .i32⟩
  | 76 => ⟨S64x32768, .f32⟩
  | 77 => ⟨S_, .f32⟩
  | 78 => ⟨S64x32768, .f32⟩
  | 79 => ⟨S64x32768, .f32⟩
  | 80 => ⟨S64x32768, .f32⟩
  | 81 => ⟨S64x32768, .f32⟩
  | 82 => ⟨S_, .f32⟩
  | 83 => ⟨S64x32768, .f32⟩
  | 84 => ⟨S64x32768, .f32⟩
  | 85 => ⟨S_, .f32⟩
  | 86 => ⟨S64x32768, .f32⟩
  | 87 => ⟨S64x32768, .f32⟩
  | 88 => ⟨S_, .f32⟩
  | 89 => ⟨S64x32768, .f32⟩
  | 90 => ⟨S64x32768, .f32⟩
  | 91 => ⟨S64x32768, .f32⟩
  | 92 => ⟨S64x32768, .f32⟩
  | 93 => ⟨S64x32768, .f32⟩
  | 94 => ⟨S64x32768, .f32⟩
  | 95 => ⟨S64x32768, .f32⟩
  | 96 => ⟨S_, .f32⟩
  | 97 => ⟨S64x32768, .f32⟩
  | 98 => ⟨S64x32768, .f32⟩
  | 99 => ⟨S64x32768, .f32⟩
  | 100 => ⟨S64x32768, .f32⟩
  | 101 => ⟨S64x32768, .f32⟩
  | 102 => ⟨S_, .f32⟩
  | 103 => ⟨S64x32768, .f32⟩
  | 104 => ⟨S64x32768, .f32⟩
  | 105 => ⟨S_, .f32⟩
  | 106 => ⟨S64x32768, .f32⟩
  | 107 => ⟨S64x32768, .f32⟩
  | 108 => ⟨S_, .f32⟩
  | 109 => ⟨S64x32768, .f32⟩
  | 110 => ⟨S64x32768, .f32⟩
  | 111 => ⟨S64x32768, .f32⟩
  | 112 => ⟨S64x32768, .f32⟩
  | 113 => ⟨S64x32768, .f32⟩
  | 114 => ⟨S64x32768, .f32⟩
  | 115 => ⟨S64x32768, .f32⟩
  | 116 => ⟨S64x32768, .f32⟩
  | 117 => ⟨S_, .f32⟩
  | 118 => ⟨S64x32768, .f32⟩
  | 119 => ⟨S64x32768, .f32⟩
  | 120 => ⟨S64x32768, .f32⟩
  | 121 => ⟨S64x32768, .f32⟩
  | 122 => ⟨S64x32768, .f32⟩
  | 123 => ⟨S_, .f32⟩
  | 124 => ⟨S64x32768, .f32⟩
  | 125 => ⟨S64x32768, .f32⟩
  | 126 => ⟨S_, .f32⟩
  | 127 => ⟨S64x32768, .f32⟩
  | _ => ⟨S64x32768x1, .f32⟩

abbrev hbmTy0_1 (i : Nat) : BufTy := match i % 128 with
  | 0 => ⟨S64x32768, .f32⟩
  | 1 => ⟨S_, .f32⟩
  | 2 => ⟨S64x32768, .f32⟩
  | 3 => ⟨S64x32768, .f32⟩
  | 4 => ⟨S64x32768, .f32⟩
  | 5 => ⟨S64x32768, .f32⟩
  | 6 => ⟨S64x32768, .f32⟩
  | 7 => ⟨S64x32768, .f32⟩
  | 8 => ⟨S64x32768, .f32⟩
  | 9 => ⟨S64x32768x1, .i32⟩
  | 10 => ⟨S64x32768x1, .i32⟩
  | 11 => ⟨S_, .i32⟩
  | 12 => ⟨S64x32768x1, .i32⟩
  | 13 => ⟨S64x32768x1, .i1⟩
  | 14 => ⟨S_, .i32⟩
  | 15 => ⟨S64x32768x1, .i32⟩
  | 16 => ⟨S64x32768x1, .i32⟩
  | 17 => ⟨S64x32768x1, .i32⟩
  | 18 => ⟨S64x32768x1x1, .i32⟩
  | 19 => ⟨S1, .i32⟩
  | 20 => ⟨S_, .i32⟩
  | 21 => ⟨S64x32768x1x1, .i32⟩
  | 22 => ⟨S64x32768x1x1, .i1⟩
  | 23 => ⟨S1x1x1x1, .i32⟩
  | 24 => ⟨S64x32768x1x1, .i32⟩
  | 25 => ⟨S64x32768x1x1, .i1⟩
  | 26 => ⟨S64x32768x1x1, .i1⟩
  | 27 => ⟨S_, .i1⟩
  | 28 => ⟨S64x32768x1, .i1⟩
  | 29 => ⟨S64x32768x1, .f32⟩
  | 30 => ⟨S_, .f32⟩
  | 31 => ⟨S64x32768x1, .f32⟩
  | 32 => ⟨S64x32768x1, .f32⟩
  | 33 => ⟨S64x32768, .f32⟩
  | 34 => ⟨S64x32768, .f32⟩
  | 35 => ⟨S64x32768, .f32⟩
  | 36 => ⟨S64x32768x1, .i32⟩
  | 37 => ⟨S64x32768x1, .i32⟩
  | 38 => ⟨S_, .i32⟩
  | 39 => ⟨S64x32768x1, .i32⟩
  | 40 => ⟨S64x32768x1, .i1⟩
  | 41 => ⟨S_, .i32⟩
  | 42 => ⟨S64x32768x1, .i32⟩
  | 43 => ⟨S64x32768x1, .i32⟩
  | 44 => ⟨S64x32768x1, .i32⟩
  | 45 => ⟨S64x32768x1x1, .i32⟩
  | 46 => ⟨S1, .i32⟩
  | 47 => ⟨S_, .i32⟩
  | 48 => ⟨S64x32768x1x1, .i32⟩
  | 49 => ⟨S64x32768x1x1, .i1⟩
  | 50 => ⟨S1x1x1x1, .i32⟩
  | 51 => ⟨S64x32768x1x1, .i32⟩
  | 52 => ⟨S64x32768x1x1, .i1⟩
  | 53 => ⟨S64x32768x1x1, .i1⟩
  | 54 => ⟨S_, .i1⟩
  | 55 => ⟨S64x32768x1, .i1⟩
  | 56 => ⟨S64x32768x1, .f32⟩
  | 57 => ⟨S_, .f32⟩
  | 58 => ⟨S64x32768x1, .f32⟩
  | 59 => ⟨S64x32768x1, .f32⟩
  | 60 => ⟨S64x32768, .f32⟩
  | 61 => ⟨S64x32768, .f32⟩
  | 62 => ⟨S64x32768, .f32⟩
  | 63 => ⟨S64x32768, .f32⟩
  | 64 => ⟨S64x32768, .f32⟩
  | 65 => ⟨S64x32768, .f32⟩
  | 66 => ⟨S64x32768, .f32⟩
  | 67 => ⟨S64x32768, .f32⟩
  | 68 => ⟨S_, .f32⟩
  | 69 => ⟨S_, .f32⟩
  | 70 => ⟨S_, .f32⟩
  | 71 => ⟨S_, .f32⟩
  | 72 => ⟨S1, .f32⟩
  | _ => ⟨S64x32768x1, .f32⟩

abbrev hbmTy (i : Nat) : BufTy := match i / 128 with
  | 0 => hbmTy0_0 i
  | 1 => hbmTy0_1 i
  | _ => ⟨S64x32768x1, .f32⟩

abbrev bufTy : (tb : Table) → Fin (tcTables nBuf tb) → BufTy
  | .hbm, ⟨i, _⟩ => hbmTy i
  | _, _ => ⟨S64x32768x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_cst_2 : Ref sig .tc := ⟨.hbm, 18, rfl⟩
abbrev main_call0_v0 : Ref sig .tc := ⟨.hbm, 19, rfl⟩
abbrev main_call0_v1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_3 : Ref sig .tc := ⟨.hbm, 24, rfl⟩
abbrev main_v11 : Ref sig .tc := ⟨.hbm, 25, rfl⟩
abbrev main_v12 : Ref sig .tc := ⟨.hbm, 26, rfl⟩
abbrev main_cst_4 : Ref sig .tc := ⟨.hbm, 27, rfl⟩
abbrev main_cst_5 : Ref sig .tc := ⟨.hbm, 28, rfl⟩
abbrev main_call1_v0 : Ref sig .tc := ⟨.hbm, 29, rfl⟩
abbrev main_call1_v1 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_6 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_7 : Ref sig .tc := ⟨.hbm, 39, rfl⟩
abbrev main_v20 : Ref sig .tc := ⟨.hbm, 40, rfl⟩
abbrev main_v21 : Ref sig .tc := ⟨.hbm, 41, rfl⟩
abbrev main_c_8 : Ref sig .tc := ⟨.hbm, 42, rfl⟩
abbrev main_c_9 : Ref sig .tc := ⟨.hbm, 43, rfl⟩
abbrev main_call2_v0 : Ref sig .tc := ⟨.hbm, 44, rfl⟩
abbrev main_call2_v1 : Ref sig .tc := ⟨.hbm, 45, rfl⟩
abbrev main_v22 : Ref sig .tc := ⟨.hbm, 46, rfl⟩
abbrev main_c_10 : Ref sig .tc := ⟨.hbm, 47, rfl⟩
abbrev main_call3_v0 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_c_11 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_c_12 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_c_13 : Ref sig .tc := ⟨.hbm, 62, rfl⟩
abbrev main_v34 : Ref sig .tc := ⟨.hbm, 63, rfl⟩
abbrev main_v35 : Ref sig .tc := ⟨.hbm, 64, rfl⟩
abbrev main_c_14 : Ref sig .tc := ⟨.hbm, 65, rfl⟩
abbrev main_c_15 : Ref sig .tc := ⟨.hbm, 66, rfl⟩
abbrev main_call4_v0 : Ref sig .tc := ⟨.hbm, 67, rfl⟩
abbrev main_call4_v1 : Ref sig .tc := ⟨.hbm, 68, rfl⟩
abbrev main_v36 : Ref sig .tc := ⟨.hbm, 69, rfl⟩
abbrev main_c_16 : Ref sig .tc := ⟨.hbm, 70, rfl⟩
abbrev main_call5_v0 : Ref sig .tc := ⟨.hbm, 71, rfl⟩
abbrev main_v37 : Ref sig .tc := ⟨.hbm, 72, rfl⟩
abbrev main_c_17 : Ref sig .tc := ⟨.hbm, 73, rfl⟩
abbrev main_call6_v0 : Ref sig .tc := ⟨.hbm, 74, rfl⟩
abbrev main_v38 : Ref sig .tc := ⟨.hbm, 75, rfl⟩
abbrev main_v39 : Ref sig .tc := ⟨.hbm, 76, rfl⟩
abbrev main_cst_18 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_cst_19 : Ref sig .tc := ⟨.hbm, 82, rfl⟩
abbrev main_v44 : Ref sig .tc := ⟨.hbm, 83, rfl⟩
abbrev main_v45 : Ref sig .tc := ⟨.hbm, 84, rfl⟩
abbrev main_cst_20 : Ref sig .tc := ⟨.hbm, 85, rfl⟩
abbrev main_v46 : Ref sig .tc := ⟨.hbm, 86, rfl⟩
abbrev main_v47 : Ref sig .tc := ⟨.hbm, 87, rfl⟩
abbrev main_cst_21 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_cst_22 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_cst_23 : Ref sig .tc := ⟨.hbm, 102, rfl⟩
abbrev main_v60 : Ref sig .tc := ⟨.hbm, 103, rfl⟩
abbrev main_v61 : Ref sig .tc := ⟨.hbm, 104, rfl⟩
abbrev main_cst_24 : Ref sig .tc := ⟨.hbm, 105, rfl⟩
abbrev main_v62 : Ref sig .tc := ⟨.hbm, 106, rfl⟩
abbrev main_v63 : Ref sig .tc := ⟨.hbm, 107, rfl⟩
abbrev main_cst_25 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_cst_26 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_cst_27 : Ref sig .tc := ⟨.hbm, 123, rfl⟩
abbrev main_v77 : Ref sig .tc := ⟨.hbm, 124, rfl⟩
abbrev main_v78 : Ref sig .tc := ⟨.hbm, 125, rfl⟩
abbrev main_cst_28 : Ref sig .tc := ⟨.hbm, 126, rfl⟩
abbrev main_v79 : Ref sig .tc := ⟨.hbm, 127, rfl⟩
abbrev main_v80 : Ref sig .tc := ⟨.hbm, 128, rfl⟩
abbrev main_cst_29 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_call7_v0 : Ref sig .tc := ⟨.hbm, 138, rfl⟩
abbrev main_call7_c : Ref sig .tc := ⟨.hbm, 139, rfl⟩
abbrev main_call7_v1 : Ref sig .tc := ⟨.hbm, 140, rfl⟩
abbrev main_call7_v2 : Ref sig .tc := ⟨.hbm, 141, rfl⟩
abbrev main_call7_c_0 : Ref sig .tc := ⟨.hbm, 142, rfl⟩
abbrev main_call7_v3 : Ref sig .tc := ⟨.hbm, 143, rfl⟩
abbrev main_call7_v4 : Ref sig .tc := ⟨.hbm, 144, rfl⟩
abbrev main_call7_v5 : Ref sig .tc := ⟨.hbm, 145, rfl⟩
abbrev main_call7_v6 : Ref sig .tc := ⟨.hbm, 146, rfl⟩
abbrev main_call7_c_1 : Ref sig .tc := ⟨.hbm, 147, rfl⟩
abbrev main_call7_c_2 : Ref sig .tc := ⟨.hbm, 148, rfl⟩
abbrev main_call7_v7 : Ref sig .tc := ⟨.hbm, 149, rfl⟩
abbrev main_call7_v8 : Ref sig .tc := ⟨.hbm, 150, rfl⟩
abbrev main_call7_v9 : Ref sig .tc := ⟨.hbm, 151, rfl⟩
abbrev main_call7_v10 : Ref sig .tc := ⟨.hbm, 152, rfl⟩
abbrev main_call7_v11 : Ref sig .tc := ⟨.hbm, 153, rfl⟩
abbrev main_call7_v12 : Ref sig .tc := ⟨.hbm, 154, rfl⟩
abbrev main_call7_c_3 : Ref sig .tc := ⟨.hbm, 155, rfl⟩
abbrev main_call7_v13 : Ref sig .tc := ⟨.hbm, 156, rfl⟩
abbrev main_call7_v14 : Ref sig .tc := ⟨.hbm, 157, rfl⟩
abbrev main_call7_cst : Ref sig .tc := ⟨.hbm, 158, rfl⟩
abbrev main_call7_v15 : Ref sig .tc := ⟨.hbm, 159, rfl⟩
abbrev main_v89 : Ref sig .tc := ⟨.hbm, 160, rfl⟩
abbrev main_v90 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_call8_v0 : Ref sig .tc := ⟨.hbm, 165, rfl⟩
abbrev main_call8_c : Ref sig .tc := ⟨.hbm, 166, rfl⟩
abbrev main_call8_v1 : Ref sig .tc := ⟨.hbm, 167, rfl⟩
abbrev main_call8_v2 : Ref sig .tc := ⟨.hbm, 168, rfl⟩
abbrev main_call8_c_0 : Ref sig .tc := ⟨.hbm, 169, rfl⟩
abbrev main_call8_v3 : Ref sig .tc := ⟨.hbm, 170, rfl⟩
abbrev main_call8_v4 : Ref sig .tc := ⟨.hbm, 171, rfl⟩
abbrev main_call8_v5 : Ref sig .tc := ⟨.hbm, 172, rfl⟩
abbrev main_call8_v6 : Ref sig .tc := ⟨.hbm, 173, rfl⟩
abbrev main_call8_c_1 : Ref sig .tc := ⟨.hbm, 174, rfl⟩
abbrev main_call8_c_2 : Ref sig .tc := ⟨.hbm, 175, rfl⟩
abbrev main_call8_v7 : Ref sig .tc := ⟨.hbm, 176, rfl⟩
abbrev main_call8_v8 : Ref sig .tc := ⟨.hbm, 177, rfl⟩
abbrev main_call8_v9 : Ref sig .tc := ⟨.hbm, 178, rfl⟩
abbrev main_call8_v10 : Ref sig .tc := ⟨.hbm, 179, rfl⟩
abbrev main_call8_v11 : Ref sig .tc := ⟨.hbm, 180, rfl⟩
abbrev main_call8_v12 : Ref sig .tc := ⟨.hbm, 181, rfl⟩
abbrev main_call8_c_3 : Ref sig .tc := ⟨.hbm, 182, rfl⟩
abbrev main_call8_v13 : Ref sig .tc := ⟨.hbm, 183, rfl⟩
abbrev main_call8_v14 : Ref sig .tc := ⟨.hbm, 184, rfl⟩
abbrev main_call8_cst : Ref sig .tc := ⟨.hbm, 185, rfl⟩
abbrev main_call8_v15 : Ref sig .tc := ⟨.hbm, 186, rfl⟩
abbrev main_v94 : Ref sig .tc := ⟨.hbm, 187, rfl⟩
abbrev main_v95 : Ref sig .tc := ⟨.hbm, 188, rfl⟩
abbrev main_v96 : Ref sig .tc := ⟨.hbm, 189, rfl⟩
abbrev main_v97 : Ref sig .tc := ⟨.hbm, 190, rfl⟩
abbrev main_v98 : Ref sig .tc := ⟨.hbm, 191, rfl⟩
abbrev main_v99 : Ref sig .tc := ⟨.hbm, 192, rfl⟩
abbrev main_v100 : Ref sig .tc := ⟨.hbm, 193, rfl⟩
abbrev main_v101 : Ref sig .tc := ⟨.hbm, 194, rfl⟩
abbrev main_v102 : Ref sig .tc := ⟨.hbm, 195, rfl⟩
abbrev main_cst_30 : Ref sig .tc := ⟨.hbm, 196, rfl⟩
abbrev main_v103 : Ref sig .tc := ⟨.hbm, 197, rfl⟩
abbrev main_cst_31 : Ref sig .tc := ⟨.hbm, 198, rfl⟩
abbrev main_v104 : Ref sig .tc := ⟨.hbm, 199, rfl⟩
abbrev main_v105 : Ref sig .tc := ⟨.hbm, 200, rfl⟩

abbrev nD : Nat := 1
abbrev τ : Topo := Topo.v7x

variable {F : FTy → Type} [FloatOps F]

class Facts₀ : Prop where
  bcast_S_S64x32768x9 : S_.BroadcastsInDim S64x32768x9 (![] : Fin 0 → Fin S64x32768x9.rank)
  reducesTo_S64x32768x9_S64x32768_d2 : S64x32768x9.ReducesTo [2] S64x32768
  h_S_ : 0 < S_.numel
  slices_S64x32768x9_S64x32768x1_0_0_0 : S64x32768x9.Slices ![0, 0, 0] S64x32768x1
  shapeCasts_S64x32768x1_S64x32768 : S64x32768x1.ShapeCasts S64x32768
  bcast_S_S64x32768 : S_.BroadcastsInDim S64x32768 (![] : Fin 0 → Fin S64x32768.rank)
  slices_S64x32768x9_S64x32768x1_0_0_7 : S64x32768x9.Slices ![0, 0, 7] S64x32768x1
  slices_S64x32768x9_S64x32768x1_0_0_4 : S64x32768x9.Slices ![0, 0, 4] S64x32768x1
  slices_S64x32768x9_S64x32768x1_0_0_5 : S64x32768x9.Slices ![0, 0, 5] S64x32768x1
  slices_S64x32768x9_S64x32768x1_0_0_2 : S64x32768x9.Slices ![0, 0, 2] S64x32768x1
  slices_S64x32768x9_S64x32768x1_0_0_3 : S64x32768x9.Slices ![0, 0, 3] S64x32768x1
  slices_S64x32768x9_S64x32768x1_0_0_6 : S64x32768x9.Slices ![0, 0, 6] S64x32768x1
  bcast_S64x32768_S64x32768x1_0_1 : S64x32768.BroadcastsInDim S64x32768x1 (![0, 1] : Fin 2 → Fin S64x32768x1.rank)
  bcast_S_S64x32768x1 : S_.BroadcastsInDim S64x32768x1 (![] : Fin 0 → Fin S64x32768x1.rank)
  shapeCasts_S64x32768x1_S64x32768x1x1 : S64x32768x1.ShapeCasts S64x32768x1x1
  bcast_S_S64x32768x1x1 : S_.BroadcastsInDim S64x32768x1x1 (![] : Fin 0 → Fin S64x32768x1x1.rank)
  bcast_S1_S1x1x1x1_3 : S1.BroadcastsInDim S1x1x1x1 (![3] : Fin 1 → Fin S1x1x1x1.rank)
  bcast_S1x1x1x1_S64x32768x1x1_0_1_2_3 : S1x1x1x1.BroadcastsInDim S64x32768x1x1 (![0, 1, 2, 3] : Fin 4 → Fin S64x32768x1x1.rank)
  reducesTo_S64x32768x1x1_S64x32768x1_d3 : S64x32768x1x1.ReducesTo [3] S64x32768x1
  reducesTo_S64x32768_S_d0_1 : S64x32768.ReducesTo [0, 1] S_
  shapeCasts_S_S1 : S_.ShapeCasts S1
  gather_S64x32768x3_S64x32768x1x1_S64x32768x1_n_2_01_01_2_3_111_wf : GatherDims.WF S64x32768x3 S64x32768x1x1 S64x32768x1 [] [2] [0, 1] [2] [0, 1] 3 ![1, 1, 1]
  gather_S64x32768x4_S64x32768x1x1_S64x32768x1_n_2_01_01_2_3_111_wf : GatherDims.WF S64x32768x4 S64x32768x1x1 S64x32768x1 [] [2] [0, 1] [2] [0, 1] 3 ![1, 1, 1]

variable [Facts₀]

def gather_S64x32768x3_S64x32768x1x1_S64x32768x1_n_2_01_01_2_3_111 : GatherDims S64x32768x3 S64x32768x1x1 S64x32768x1 where
  offsetDims := []
  collapsedSliceDims := [2]
  operandBatchingDims := [0, 1]
  startIndicesBatchingDims := [0, 1]
  startIndexMap := [2]
  indexVectorDim := 3
  sliceSizes := ![1, 1, 1]
  wf := gather_S64x32768x3_S64x32768x1x1_S64x32768x1_n_2_01_01_2_3_111_wf
def gather_S64x32768x4_S64x32768x1x1_S64x32768x1_n_2_01_01_2_3_111 : GatherDims S64x32768x4 S64x32768x1x1 S64x32768x1 where
  offsetDims := []
  collapsedSliceDims := [2]
  operandBatchingDims := [0, 1]
  startIndicesBatchingDims := [0, 1]
  startIndexMap := [2]
  indexVectorDim := 3
  sliceSizes := ![1, 1, 1]
  wf := gather_S64x32768x4_S64x32768x1x1_S64x32768x1_n_2_01_01_2_3_111_wf

class Facts : Prop extends Facts₀ where

variable [Facts]
-- ==== Proof.Spec.lean ====
/-
  The quantity both programs compute, written once over the extended reals.

  For every batch row b and sequence position j the loss of that position is built from the nine label words y(b,j,·)
  and the predicted probabilities: a weighted binary cross-entropy of the stroke probability against the stroke
  indicator, plus, scaled by the stroke indicator, the binary cross-entropies of the player and hand probabilities
  against the indicators "label 0 is not set" and "label 7 is not set" and the negative log-probabilities of the point
  class (chosen by labels 4, 5) and of the serve class (chosen by labels 2, 3, 6). The result is the mean of these
  losses over all 64 · 32768 positions: their sum, from the zero word, divided by the word of 2^21.

  The two programs differ in ONE place, the stroke indicator: one takes the largest of the nine labels read as numbers,
  the other asks whether some label equals one and reads the answer as a number. On labels that are all zero or one the
  two agree (stroke_eq), which is the only use of the labels' domain.
-/
import Idealize.ShloMosaic.PureOps.Ideal
import Idealize.ShloMosaic.PureOps.Ideal.Laws
import Idealize.ShloMosaic.Lib.ValueIdx

noncomputable section

open scoped BigOperators

namespace Cert.LossSpec

open Idealize.ShloMosaic

/-- The words of the float constants the programs share. -/
abbrev one : EReal := Ideal.ofBits .f32 0x3F800000#32
abbrev zero : EReal := Ideal.ofBits .f32 0x00000000#32
abbrev wPos : EReal := Ideal.ofBits .f32 0x41986666#32
abbrev wNeg : EReal := Ideal.ofBits .f32 0x3F028F5C#32

/-- The loss of one position, from its stroke indicator ys, its nine label words y, the stroke, player and hand
    probabilities ps, pl, ph, the three point-class probabilities pt and the four serve-class probabilities sv. -/
def cell (ys : EReal) (y : Fin 9 → BitVec 32) (ps pl ph : EReal) (pt : Fin 3 → EReal) (sv : Fin 4 → EReal) : EReal :=
  let yp : EReal := if y 0 = 1#32 then zero else one
  let yh : EReal := if y 7 = 1#32 then zero else one
  let selp : EReal := if y 4 = 1#32 then pt 0 else if y 5 = 1#32 then pt 1 else pt 2
  let sels : EReal := if y 2 = 1#32 then sv 0 else if y 3 = 1#32 then sv 1 else if y 6 = 1#32 then sv 2 else sv 3
  let bceS : EReal := zero - (wPos * ys * Ideal.log ps + wNeg * (one - ys) * Ideal.log (one - ps))
  let bceP : EReal := zero - (yp * Ideal.log pl + (one - yp) * Ideal.log (one - pl))
  let bceH : EReal := zero - (yh * Ideal.log ph + (one - yh) * Ideal.log (one - ph))
  let cceP : EReal := zero - Ideal.log selp
  let cceS : EReal := zero - Ideal.log sels
  bceS + ys * (bceP + bceH + cceP + cceS)

/-- The stroke indicator as the largest label: the maximum, from minus infinity, of the labels read as signed numbers. -/
def strokeMax (y : Fin 9 → BitVec 32) : EReal :=
  (Finset.univ : Finset (Fin 9)).fold max (Ideal.ofBits .f32 0xFF800000#32) (fun k => (((y k).toInt : ℝ) : EReal))

/-- The stroke indicator as "some label is one": the disjunction, from false, of the tests y k = 1, read as a number. -/
def strokeAny (y : Fin 9 → BitVec 32) : EReal :=
  ((((Finset.univ : Finset (Fin 9)).fold IntOp.ori 0#1 (fun k => IntOp.cmpi .eq (y k) 1#32)).toNat : ℝ) : EReal)

/-- The mean over all positions of a per-position loss f: the sum from the zero word, over the word of 2^21. -/
def mean (f : Fin 64 → Fin 32768 → EReal) : EReal :=
  Ideal.div (zero + ∑ b : Fin 64, ∑ j : Fin 32768, f b j) (Ideal.ofBits .f32 0x4A000000#32)

end Cert.LossSpec

end
-- ==== Proof.LibTrailingSums.lean ====
/-
  Sums over the trailing axes of a small-rank array, read by coordinates at the exact (extended-real) values, on both
  sides of a kernel/host comparison, and the layout steps that put per-row scalars side by side as columns.

  * A kernel's lane sum of `[a, b, c]` over its last axis, read at `(p, r)`, is `∑ k, x (p, r, k)`; of `[a, b]` over its
    last axis, read at `p`, is `∑ r, x (p, r)`. Composed, they give the iterated sum `∑ r, ∑ k, x (p, r, k)`.
  * The host's single reduction of `[a, b, c]` over BOTH trailing axes, read at `p`, is the initial value plus the same
    iterated sum: the indices that drop to `p` are exactly the triples `(p, r, k)`.
  * A vector `[a]` recast as a column `[a, 1]` reads its entry `p` at `(p, 0)`; four columns `[a, 1]` joined along the
    second axis into `[a, 4]` read column `q` at `(p, q)`.
-/
import Idealize.ShloMosaic.PureOps.Ideal.Laws
import Idealize.ShloMosaic.Lib.ValueIdx
import Idealize.ShloMosaic.Lib.Pipeline.Value
import Idealize.ShloMosaic.Lib.IdealHost

noncomputable section

namespace Idealize.ShloMosaic.TrailingSums

open Idealize.ShloMosaic Idealize.ShloMosaic.ValueIdx

variable {φ : FTy}

/-! ## The kernel's lane sums -/

/-- Putting coordinate `k` back on the last axis of `(p, r)` gives `(p, r, k)`. -/
theorem lift_last3 {a b c : Nat} (h : (⟨3, ![a, b, c]⟩ : Shape).Reduces [2] ⟨2, ![a, b]⟩) (p : Fin a) (r : Fin b) (k : Fin c) :
    h.lift (ix2 p r) k = ix3 p r k := by
  funext d; apply Fin.ext
  match d with
  | ⟨0, _⟩ => rfl
  | ⟨1, _⟩ => rfl
  | ⟨2, _⟩ => rfl

/-- Putting coordinate `r` back on the last axis of `p` gives `(p, r)`. -/
theorem lift_last2 {a b : Nat} (h : (⟨2, ![a, b]⟩ : Shape).Reduces [1] ⟨1, ![a]⟩) (p : Fin a) (r : Fin b) :
    h.lift (ix1 p) r = ix2 p r := by
  funext d; apply Fin.ext
  match d with
  | ⟨0, _⟩ => rfl
  | ⟨1, _⟩ => rfl

/-- A lane sum of `[a, b, c]` over the last axis from the zero accumulator, at `(p, r)`: the sum of row `(p, r)`. -/
theorem sum_last3 {a b c : Nat} (x : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (r : Fin b) :
    multiReduction (F := Ideal) .add [2] ⟨2, ![a, b]⟩ x acc h hφ hacc (ix2 p r) = ∑ k : Fin c, x (ix3 p r k) :=
  (Ideal.multiReduction_add_single x acc h hφ hacc (ix2 p r)).trans
    (Finset.sum_congr rfl fun k _ => congrArg x (lift_last3 h p r k))

/-- A lane sum of `[a, b]` over the last axis from the zero accumulator, at `p`: the sum of row `p`. -/
theorem sum_last2 {a b : Nat} (x : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction (F := Ideal) .add [1] ⟨1, ![a]⟩ x acc h hφ hacc (ix1 p) = ∑ r : Fin b, x (ix2 p r) :=
  (Ideal.multiReduction_add_single x acc h hφ hacc (ix1 p)).trans
    (Finset.sum_congr rfl fun r _ => congrArg x (lift_last2 h p r))

/-! ## The host's sum over both trailing axes -/

/-- Dropping the two trailing coordinates of `(p, r, k)` leaves `p`. -/
theorem drop_trailing2 {a b c : Nat} (h : (⟨3, ![a, b, c]⟩ : Shape).ReducesTo [1, 2] ⟨1, ![a]⟩)
    (i : (⟨3, ![a, b, c]⟩ : Shape).Idx) : ((h.drop i) 0).val = (i 0).val :=
  rfl

/-- The host's reduction of `[a, b, c]` over axes 1 and 2, read at `p`: the initial value plus `∑ r, ∑ k, x (p, r, k)`.
    The indices that drop to `p` correspond one to one to the pairs `(r, k)`. -/
theorem hostSum_trailing2 {a b c : Nat} (h : (⟨3, ![a, b, c]⟩ : Shape).ReducesTo [1, 2] ⟨1, ![a]⟩)
    (x : (⟨3, ![a, b, c]⟩ : Shape).Idx → EReal) (init : EReal) (p : Fin a) :
    Ideal.hostReduceAdd h x init (ix1 p) = init + ∑ r : Fin b, ∑ k : Fin c, x (ix3 p r k) := by
  unfold Ideal.hostReduceAdd
  congr 1
  rw [← Fintype.sum_prod_type' (f := fun (r : Fin b) (k : Fin c) => x (ix3 p r k))]
  have h0 : ∀ i : (⟨3, ![a, b, c]⟩ : Shape).Idx, h.drop i = ix1 p → ix3 p (i 1) (i 2) = i := by
    intro i hi
    have e : (i 0).val = p.val := (drop_trailing2 h i).symm.trans (congrArg (fun j => (j 0).val) hi)
    funext d; apply Fin.ext
    match d with
    | ⟨0, _⟩ => exact e.symm
    | ⟨1, _⟩ => rfl
    | ⟨2, _⟩ => rfl
  refine Finset.sum_nbij' (fun i => ((i 1, i 2) : Fin b × Fin c)) (fun rk => ix3 p rk.1 rk.2) ?_ ?_ ?_ ?_ ?_
  · intro i _; exact Finset.mem_univ _
  · intro rk _
    refine Finset.mem_filter.2 ⟨Finset.mem_univ _, ?_⟩
    funext d; apply Fin.ext
    match d with
    | ⟨0, _⟩ => exact drop_trailing2 h (ix3 p rk.1 rk.2)
  · intro i hi; exact h0 i (Finset.mem_filter.1 hi).2
  · intro rk _; rfl
  · intro i hi; exact congrArg x (h0 i (Finset.mem_filter.1 hi).2).symm

/-! ## Scalars per row laid side by side -/

/-- A vector `[a]` recast as a column `[a, 1]`, read at `(p, 0)`: entry `p`. -/
theorem col_of_vec {α : Type} {a : Nat} (v : (⟨1, ![a]⟩ : Shape).Idx → α) (h : (⟨1, ![a]⟩ : Shape).ShapeCasts ⟨2, ![a, 1]⟩)
    (p : Fin a) (z : Fin 1) : shapeCast ⟨2, ![a, 1]⟩ v h (ix2 p z) = v (ix1 p) :=
  shapeCast_apply v h (ix2 p z) (ix1 p) (by
    rw [Shape.rowMajor_val_one, Shape.rowMajor_val_two]
    show p.val = p.val * 1 + z.val
    have := z.isLt; omega)

/-- Four columns `[a, 1]` joined along the second axis into `[a, 4]`, read at `(p, q)`: column `q` at `(p, 0)`. -/
theorem cols4 {α : Type} {a : Nat} (f : Fin 4 → ((⟨2, ![a, 1]⟩ : Shape).Idx → α))
    (h : Shape.Concatenates (([⟨⟨2, ![a, 1]⟩, f 0⟩, ⟨⟨2, ![a, 1]⟩, f 1⟩, ⟨⟨2, ![a, 1]⟩, f 2⟩, ⟨⟨2, ![a, 1]⟩, f 3⟩] :
      List ((s : Shape) × (s.Idx → α))).map (·.1)) ⟨2, ![a, 4]⟩ 1) (p : Fin a) (q : Fin 4) :
    concatenate ⟨2, ![a, 4]⟩ 1 [⟨⟨2, ![a, 1]⟩, f 0⟩, ⟨⟨2, ![a, 1]⟩, f 1⟩, ⟨⟨2, ![a, 1]⟩, f 2⟩, ⟨⟨2, ![a, 1]⟩, f 3⟩] h (ix2 p q)
      = f q (ix2 p 0) :=
  concatenate_ofFn_unit_apply (t := ⟨2, ![a, 4]⟩) (s₁ := ⟨2, ![a, 1]⟩) 1 f h rfl rfl (ix2 p q) q rfl (ix2 p 0)
    (fun b hb => by
      match b with
      | ⟨0, _⟩ => rfl
      | ⟨1, _⟩ => exact absurd rfl hb)

end Idealize.ShloMosaic.TrailingSums

end
-- ==== Proof.TileValue.lean ====
/-
  One grid point of the kernel, as a value.

  At a grid point the kernel holds a block of 32 batch rows by 128 sequence positions of each argument. It computes the
  loss of every position of the block, adds the 128 losses of each row, adds the 32 row totals, and adds the block total
  to the running total it carries from point to point. This module reads that step at the extended reals: the running
  total grows by the double sum, over the block's rows p and positions q, of the specification's per-position loss
  taken with the stroke indicator "largest label".
-/
import proofs.«134005_j8323646620405_1_alg».proof.Proof.Gen.KernelIdeal.Skeleton
import proofs.«134005_j8323646620405_1_alg».proof.Proof.Spec
import proofs.«134005_j8323646620405_1_alg».proof.Proof.LibTrailingSums
import Idealize.ShloMosaic.Lib.Pipeline.Value
import Idealize.ShloMosaic.Lib.ValueIdx
import Idealize.ShloMosaic.PureOps.Ideal.Laws
import Idealize.ShloMosaic.Lib.IdealHost

noncomputable section

open scoped BigOperators

namespace Cert.KernelValue

open Idealize.ShloMosaic Idealize.ShloMosaic.ValueIdx Idealize.ShloMosaic.TrailingSums
open Cert.KernelIdeal Cert.KernelIdeal.Gen

/-- The body's update of the running total at one point: from the six input blocks and the total so far. -/
def step {F : FTy → Type} [FloatOps F] (x0 x1 x2 : Vec F S32x128x1 .f32) (x3 : Vec F S32x128x3 .f32)
    (x4 : Vec F S32x128x4 .f32) (x5 : Vec F S32x128x9 .i32) (acc : Vec F S1x1x1 .f32) : Vec F S1x1x1 .f32 :=
  k0_pay1 (k0_pay21 (k0_pay3 x0) (k0_pay4 x1) (k0_pay5 x2) (k0_pay13 x5) (k0_pay14 x5) (k0_pay15 (k0_pay12 x5))
    (k0_pay16 x3 (k0_pay9 x5) (k0_pay10 x5)) (k0_pay17 x4 (k0_pay7 x5) (k0_pay8 x5) (k0_pay11 x5))
    (k0_pay18 (k0_pay3 x0) (k0_pay13 x5)) (k0_pay19 (k0_pay13 x5)) (k0_pay20 (F := F)) acc)

/-! ## Layout steps read by coordinates -/

/-- A block [32,128,1] recast as [32,128] reads (p, q) at (p, q, 0). -/
theorem squeeze_apply {α : Type} (v : S32x128x1.Idx → α) (p : Fin 32) (q : Fin 128) :
    shapeCast S32x128 v shapeCasts_S32x128x1_S32x128 (ix2 p q) = v (ix3 p q 0) :=
  shapeCast_apply v _ (ix2 p q) (ix3 p q 0) (by
    rw [Shape.rowMajor_val_three, Shape.rowMajor_val_two]
    show (p.val * 128 + q.val) * 1 + 0 = p.val * 128 + q.val
    omega)

/-- Channel k of a block [32,128,n], cut out as [32,128,1], reads (p, q, 0) at (p, q, k). -/
theorem channel_apply {α : Type} {n : Nat} (x : (⟨3, ![32, 128, n]⟩ : Shape).Idx → α) (k : Fin n) (off : Fin 3 → Nat)
    (hoff : off = ![0, 0, k.val]) (h : (⟨3, ![32, 128, n]⟩ : Shape).Slices off S32x128x1) (p : Fin 32) (q : Fin 128) :
    extractStridedSlice S32x128x1 off x h (ix3 p q 0) = x (ix3 p q k) := by
  subst hoff
  refine extractStridedSlice_apply _ x h (ix3 p q 0) (ix3 p q k) fun a => ?_
  match a with
  | ⟨0, _⟩ => show p.val = 0 + p.val; omega
  | ⟨1, _⟩ => show q.val = 0 + q.val; omega
  | ⟨2, _⟩ => show k.val = k.val + 0; omega

/-- A one-entry vector recast as [1,1] and then [1,1,1] reads its entry everywhere. -/
theorem unit_apply {α : Type} (v : S1.Idx → α) (i : S1x1x1.Idx) :
    shapeCast S1x1x1 (shapeCast S1x1 v shapeCasts_S1_S1x1) shapeCasts_S1x1_S1x1x1 i = v (ix1 0) := by
  have h0 : (i 0).val < 1 := (i 0).isLt
  have h1 : (i 1).val < 1 := (i 1).isLt
  have h2 : (i 2).val < 1 := (i 2).isLt
  refine (shapeCast_apply _ shapeCasts_S1x1_S1x1x1 i (ix2 0 0) ?_).trans
    (shapeCast_apply v shapeCasts_S1_S1x1 (ix2 0 0) (ix1 0) ?_)
  · rw [Shape.rowMajor_val_three, Shape.rowMajor_val_two]
    show (0 : Fin 1).val * 1 + (0 : Fin 1).val = ((i 0).val * 1 + (i 1).val) * 1 + (i 2).val
    simp only [Fin.val_zero]; omega
  · rw [Shape.rowMajor_val_one, Shape.rowMajor_val_two]
    rfl

/-! ## The two sums -/

/-- Row sums of a [32,128] tile, recast as a column, then summed down the column, then recast as [1,1,1] and added to
    the running total: the total grows by the double sum of the tile. -/
theorem total_apply (g : FVec Ideal S32x128 .f32) (acc : Vec Ideal S1x1x1 .f32) (i : S1x1x1.Idx) :
    shapeCast S1x1x1 (addf acc (shapeCast S1x1x1 (shapeCast S1x1
      (multiReduction (F := Ideal) .add [0] S1 (shapeCast S32x1
        (multiReduction (F := Ideal) .add [1] S32 g 0x00000000#32 reduces_S32x128_S32 (.inl rfl) rfl) shapeCasts_S32_S32x1)
        0x00000000#32 reduces_S32x1_S1 (.inl rfl) rfl) shapeCasts_S1_S1x1) shapeCasts_S1x1_S1x1x1))
      shapeCasts_S1x1x1_S1x1x1 i
    = acc i + ∑ p : Fin 32, ∑ q : Fin 128, g (ix2 p q) := by
  rw [shapeCast_self, addf_apply, unit_apply]
  congr 1
  refine (Ideal.multiReduction_add_total _ 0x00000000#32 reduces_S32x1_S1 (fun b => match b with | ⟨0, _⟩ => rfl) (.inl rfl) rfl (ix1 0)).trans ?_
  rw [sum_idx2]
  refine Finset.sum_congr rfl fun p _ => ?_
  rw [Fin.sum_univ_one]
  exact (col_of_vec _ shapeCasts_S32_S32x1 p 0).trans (sum_last2 g _ reduces_S32x128_S32 (.inl rfl) rfl p)

/-! ## The pieces of one position's loss -/

theorem log_apply {s : Shape} (a : FVec Ideal s .f32) (i : s.Idx) : log a i = Ideal.log (a i) := rfl

/-- A label word read as a number equals one exactly when the word is one. -/
theorem label_is_one (w : BitVec 32) :
    Ideal.cmp .oeq (((w.toInt : ℝ) : EReal)) (Ideal.ofBits .f32 0x3F800000#32) = 1#1 ↔ w = 1#32 := by
  rw [Ideal.ofBits_one_f32]
  have h1 : (((w.toInt : ℝ) : EReal) = 1) ↔ w = 1#32 := by
    rw [show (1 : EReal) = ((1 : ℝ) : EReal) from rfl, EReal.coe_eq_coe_iff, Int.cast_eq_one]
    constructor
    · intro h; exact BitVec.eq_of_toInt_eq (h.trans (by decide))
    · rintro rfl; decide
  by_cases hw : w = 1#32
  · simp [Ideal.cmp, h1.mpr hw, hw]
  · have : ¬ (((w.toInt : ℝ) : EReal) = 1) := fun h => hw (h1.mp h)
    simp [Ideal.cmp, this, hw]

/-- A select on "label read as a number equals one" is the choice on "label word is one". -/
theorem select_label {α : Type} (w : BitVec 32) (a b : α) :
    Scalar.select (FloatOps.cmpf (F := Ideal) .oeq (((w.toInt : ℝ) : EReal)) (FloatOps.ofBits (F := Ideal) .f32 0x3F800000#32)) a b
      = if w = 1#32 then a else b := by
  unfold Scalar.select
  exact if_congr (label_is_one w) rfl rfl

variable (x0 x1 x2 : Vec Ideal S32x128x1 .f32) (x3 : Vec Ideal S32x128x3 .f32) (x4 : Vec Ideal S32x128x4 .f32)
  (x5 : Vec Ideal S32x128x9 .i32) (p : Fin 32) (q : Fin 128)

theorem prob0 : k0_pay3 (F := Ideal) x0 (ix2 p q) = x0 (ix3 p q 0) := squeeze_apply x0 p q
theorem prob1 : k0_pay4 (F := Ideal) x1 (ix2 p q) = x1 (ix3 p q 0) := squeeze_apply x1 p q
theorem prob2 : k0_pay5 (F := Ideal) x2 (ix2 p q) = x2 (ix3 p q 0) := squeeze_apply x2 p q

/-- Label channel k of the block, read as numbers, at (p, q). -/
theorem label_apply (k : Fin 9) (off : Fin 3 → Nat) (hoff : off = ![0, 0, k.val]) (h : S32x128x9.Slices off S32x128x1) :
    shapeCast S32x128 (extractStridedSlice S32x128x1 off (k0_pay6 (F := Ideal) x5) h) shapeCasts_S32x128x1_S32x128 (ix2 p q)
      = (((x5 (ix3 p q k)).toInt : ℝ) : EReal) :=
  (squeeze_apply _ p q).trans (channel_apply (k0_pay6 (F := Ideal) x5) k off hoff h p q)

theorem lab2 : k0_pay7 (F := Ideal) x5 (ix2 p q) = (((x5 (ix3 p q 2)).toInt : ℝ) : EReal) := label_apply x5 p q 2 _ rfl _
theorem lab3 : k0_pay8 (F := Ideal) x5 (ix2 p q) = (((x5 (ix3 p q 3)).toInt : ℝ) : EReal) := label_apply x5 p q 3 _ rfl _
theorem lab4 : k0_pay9 (F := Ideal) x5 (ix2 p q) = (((x5 (ix3 p q 4)).toInt : ℝ) : EReal) := label_apply x5 p q 4 _ rfl _
theorem lab5 : k0_pay10 (F := Ideal) x5 (ix2 p q) = (((x5 (ix3 p q 5)).toInt : ℝ) : EReal) := label_apply x5 p q 5 _ rfl _
theorem lab6 : k0_pay11 (F := Ideal) x5 (ix2 p q) = (((x5 (ix3 p q 6)).toInt : ℝ) : EReal) := label_apply x5 p q 6 _ rfl _
theorem lab7 : k0_pay12 (F := Ideal) x5 (ix2 p q) = (((x5 (ix3 p q 7)).toInt : ℝ) : EReal) := label_apply x5 p q 7 _ rfl _

/-- The largest label of position (p, q). -/
theorem stroke_apply : k0_pay13 (F := Ideal) x5 (ix2 p q) = LossSpec.strokeMax (fun k => x5 (ix3 p q k)) := by
  refine (Ideal.multiReduction_maximumf_single (k0_pay6 (F := Ideal) x5) 0xFF800000#32 reduces_S32x128x9_S32x128
    (.inl rfl) rfl (ix2 p q)).trans ?_
  unfold LossSpec.strokeMax
  refine congrArg (Finset.fold max _ · _) (funext fun k => ?_)
  show k0_pay6 (F := Ideal) x5 (reduces_S32x128x9_S32x128.lift (ix2 p q) k) = _
  rw [lift_last3 reduces_S32x128x9_S32x128 p q k]
  rfl

/-- The indicator "label 0 is not set". -/
theorem notPlayer_apply : k0_pay14 (F := Ideal) x5 (ix2 p q)
    = if x5 (ix3 p q 0) = 1#32 then LossSpec.zero else LossSpec.one := by
  unfold k0_pay14
  simp only [select_apply, cmpf_apply, broadcast_apply]
  rw [label_apply x5 p q 0 ![0, 0, 0] rfl slices_S32x128x9_o0_0_0_S32x128x1]
  exact select_label _ _ _

/-- The indicator "label 7 is not set". -/
theorem notHand_apply : k0_pay15 (F := Ideal) (k0_pay12 (F := Ideal) x5) (ix2 p q)
    = if x5 (ix3 p q 7) = 1#32 then LossSpec.zero else LossSpec.one := by
  unfold k0_pay15
  simp only [select_apply, cmpf_apply, broadcast_apply]
  rw [lab7 x5 p q]
  exact select_label _ _ _

/-- The negative log-probability of the point class. -/
theorem point_apply : k0_pay16 (F := Ideal) x3 (k0_pay9 (F := Ideal) x5) (k0_pay10 (F := Ideal) x5) (ix2 p q)
    = LossSpec.zero - Ideal.log (if x5 (ix3 p q 4) = 1#32 then x3 (ix3 p q 0)
        else if x5 (ix3 p q 5) = 1#32 then x3 (ix3 p q 1) else x3 (ix3 p q 2)) := by
  unfold k0_pay16
  simp only [subf_apply, log_apply, select_apply, cmpf_apply, broadcast_apply]
  rw [lab4 x5 p q, lab5 x5 p q, select_label, select_label]
  rw [(squeeze_apply _ p q).trans (channel_apply x3 0 ![0, 0, 0] rfl slices_S32x128x3_o0_0_0_S32x128x1 p q),
    (squeeze_apply _ p q).trans (channel_apply x3 1 ![0, 0, 1] rfl slices_S32x128x3_o0_0_1_S32x128x1 p q),
    (squeeze_apply _ p q).trans (channel_apply x3 2 ![0, 0, 2] rfl slices_S32x128x3_o0_0_2_S32x128x1 p q)]
  rfl

/-- The negative log-probability of the serve class. -/
theorem serve_apply : k0_pay17 (F := Ideal) x4 (k0_pay7 (F := Ideal) x5) (k0_pay8 (F := Ideal) x5) (k0_pay11 (F := Ideal) x5) (ix2 p q)
    = LossSpec.zero - Ideal.log (if x5 (ix3 p q 2) = 1#32 then x4 (ix3 p q 0)
        else if x5 (ix3 p q 3) = 1#32 then x4 (ix3 p q 1)
        else if x5 (ix3 p q 6) = 1#32 then x4 (ix3 p q 2) else x4 (ix3 p q 3)) := by
  unfold k0_pay17
  simp only [subf_apply, log_apply, select_apply, cmpf_apply, broadcast_apply]
  rw [lab2 x5 p q, lab3 x5 p q, lab6 x5 p q, select_label, select_label, select_label]
  rw [(squeeze_apply _ p q).trans (channel_apply x4 0 ![0, 0, 0] rfl slices_S32x128x4_o0_0_0_S32x128x1 p q),
    (squeeze_apply _ p q).trans (channel_apply x4 1 ![0, 0, 1] rfl slices_S32x128x4_o0_0_1_S32x128x1 p q),
    (squeeze_apply _ p q).trans (channel_apply x4 2 ![0, 0, 2] rfl slices_S32x128x4_o0_0_2_S32x128x1 p q),
    (squeeze_apply _ p q).trans (channel_apply x4 3 ![0, 0, 3] rfl slices_S32x128x4_o0_0_3_S32x128x1 p q)]
  rfl

/-! ## The step -/

/-- One grid point: the running total grows by the block's double sum of per-position losses. -/
theorem step_apply (acc : Vec Ideal S1x1x1 .f32) (i : S1x1x1.Idx) :
    step (F := Ideal) x0 x1 x2 x3 x4 x5 acc i
      = acc i + ∑ p : Fin 32, ∑ q : Fin 128,
          LossSpec.cell (LossSpec.strokeMax (fun k => x5 (ix3 p q k))) (fun k => x5 (ix3 p q k))
            (x0 (ix3 p q 0)) (x1 (ix3 p q 0)) (x2 (ix3 p q 0)) (fun k => x3 (ix3 p q k)) (fun k => x4 (ix3 p q k)) := by
  unfold step k0_pay1 k0_pay21
  dsimp only
  refine (total_apply _ acc i).trans ?_
  refine congrArg (acc i + ·) ?_
  refine Finset.sum_congr rfl fun p _ => Finset.sum_congr rfl fun q _ => ?_
  simp only [addf_apply, subf_apply, mulf_apply, log_apply, broadcast_apply]
  rw [point_apply x3 x5 p q, serve_apply x4 x5 p q, notPlayer_apply x5 p q, notHand_apply x5 p q]
  unfold k0_pay18 k0_pay19 k0_pay20
  simp only [addf_apply, subf_apply, mulf_apply, log_apply, broadcast_apply]
  rw [stroke_apply x5 p q, prob0 x0 p q, prob1 x1 p q, prob2 x2 p q]
  rfl

end Cert.KernelValue

end
-- ==== Proof.Pieces.lean ====
/-
  What one run of the kernel's body leaves behind, as values.

  The body keeps a running total in a one-word scratch. At the first point of a core's sweep it first stores zero there;
  at every point it loads the total, adds the block's sum and stores it back; at the last point of the sweep it also
  copies the total into the output block. Each of the three kinds of point therefore leaves in the scratch the step
  function of the point's six input blocks applied to the total it found (zero at a first point), and a last point
  leaves the same word in the output block.
-/
import proofs.«134005_j8323646620405_1_alg».proof.Proof.Gen.KernelIdeal.Frame
import proofs.«134005_j8323646620405_1_alg».proof.Proof.TileValue
import Idealize.ShloMosaic.Lib.Pipeline.Value
import Idealize.ShloMosaic.Lib.Tactic

noncomputable section

namespace Cert.KernelValue

open Idealize.ShloMosaic Idealize.ShloMosaic.TcCoe Idealize.SL.Sem
open Cert.KernelIdeal Cert.KernelIdeal.Gen

variable {F : FTy → Type} [FloatOps F]

theorem hz3 : (![0, 0, 0] : Fin 3 → Nat) = fun _ => 0 := funext fun a => by fin_cases a <;> rfl

/-- The zero word the first point of a sweep stores into the running total. -/
abbrev zeroTotal : Vec F S1x1x1 .f32 := k0_pay2 (F := F)

/-- A point that is neither first nor last of its sweep: the scratch ends at the step of the total it held. -/
theorem sout_mid (c : Dev nD) (i : grid0.Coords) (a2 : Memref sig .tc .vmem S32x128x1 .f32) (h2 : a2.IsWhole)
    (a3 : Memref sig .tc .vmem S32x128x1 .f32) (h3 : a3.IsWhole) (a4 : Memref sig .tc .vmem S32x128x1 .f32) (h4 : a4.IsWhole)
    (a5 : Memref sig .tc .vmem S32x128x3 .f32) (h5 : a5.IsWhole) (a6 : Memref sig .tc .vmem S32x128x4 .f32) (h6 : a6.IsWhole)
    (a7 : Memref sig .tc .vmem S32x128x9 .i32) (h7 : a7.IsWhole) (a8 : Memref sig .tc .vmem S1x1x1 .f32) (h8 : a8.IsWhole)
    (a9 : Memref sig .tc .vmem S1x1x1 .f32) (h9 : a9.IsWhole) (hc0 : ¬cond0_0 i) (hc1 : ¬cond0_1 i)
    (x0 x1 x2 : Vec F S32x128x1 .f32) (x3 : Vec F S32x128x3 .f32) (x4 : Vec F S32x128x4 .f32) (x5 : Vec F S32x128x9 .i32)
    (xs0 : Vec F S1x1x1 .f32) :
    sout0_B_0 c i a2 h2 a3 h3 a4 h4 a5 h5 a6 h6 a7 h7 a8 h8 a9 h9 hc0 hc1 x0 x1 x2 x3 x4 x5 xs0 = step x0 x1 x2 x3 x4 x5 xs0 := by
  unfold sout0_B_0
  rw [View.read_writes_eq_canon _ _ _ (scover0_B_0 c i a2 h2 a3 h3 a4 h4 a5 h5 a6 h6 a7 h7 a8 h8 a9 h9 hc0 hc1 x0 x1 x2 x3 x4 x5 xs0)]
  unfold kernelRun0_B
  dsimp only
  sl_unfold_words
  rw [View.canon_unit_zero hz3]
  simp only [View.readAt_eq_ld, h2.read_unread, h3.read_unread, h4.read_unread, h5.read_unread, h6.read_unread,
    h7.read_unread, h9.read_unread, View.ld_unit_zero (S := S32x128x1) hz3, View.ld_unit_zero (S := S32x128x3) hz3,
    View.ld_unit_zero (S := S32x128x4) hz3, View.ld_unit_zero (S := S32x128x9) hz3, View.ld_unit_zero (S := S1x1x1) hz3]
  rfl

/-- A last point of a sweep: the scratch ends at the step of the total it held, -/
theorem sout_last (c : Dev nD) (i : grid0.Coords) (a2 : Memref sig .tc .vmem S32x128x1 .f32) (h2 : a2.IsWhole)
    (a3 : Memref sig .tc .vmem S32x128x1 .f32) (h3 : a3.IsWhole) (a4 : Memref sig .tc .vmem S32x128x1 .f32) (h4 : a4.IsWhole)
    (a5 : Memref sig .tc .vmem S32x128x3 .f32) (h5 : a5.IsWhole) (a6 : Memref sig .tc .vmem S32x128x4 .f32) (h6 : a6.IsWhole)
    (a7 : Memref sig .tc .vmem S32x128x9 .i32) (h7 : a7.IsWhole) (a8 : Memref sig .tc .vmem S1x1x1 .f32) (h8 : a8.IsWhole)
    (a9 : Memref sig .tc .vmem S1x1x1 .f32) (h9 : a9.IsWhole) (hc0 : ¬cond0_0 i) (hc1 : cond0_1 i)
    (x0 x1 x2 : Vec F S32x128x1 .f32) (x3 : Vec F S32x128x3 .f32) (x4 : Vec F S32x128x4 .f32) (x5 : Vec F S32x128x9 .i32)
    (xs0 : Vec F S1x1x1 .f32) :
    sout0_C_0 c i a2 h2 a3 h3 a4 h4 a5 h5 a6 h6 a7 h7 a8 h8 a9 h9 hc0 hc1 x0 x1 x2 x3 x4 x5 xs0 = step x0 x1 x2 x3 x4 x5 xs0 := by
  unfold sout0_C_0
  rw [View.read_writes_eq_canon _ _ _ (scover0_C_0 c i a2 h2 a3 h3 a4 h4 a5 h5 a6 h6 a7 h7 a8 h8 a9 h9 hc0 hc1 x0 x1 x2 x3 x4 x5 xs0)]
  unfold kernelRun0_C
  dsimp only
  sl_unfold_words
  rw [View.canon_unit_zero hz3]
  simp only [View.readAt_eq_ld, h2.read_unread, h3.read_unread, h4.read_unread, h5.read_unread, h6.read_unread,
    h7.read_unread, h9.read_unread, View.ld_unit_zero (S := S32x128x1) hz3, View.ld_unit_zero (S := S32x128x3) hz3,
    View.ld_unit_zero (S := S32x128x4) hz3, View.ld_unit_zero (S := S32x128x9) hz3, View.ld_unit_zero (S := S1x1x1) hz3]
  rfl

/-- and so does the output block, which receives a copy of it. -/
theorem out_last (c : Dev nD) (i : grid0.Coords) (a2 : Memref sig .tc .vmem S32x128x1 .f32) (h2 : a2.IsWhole)
    (a3 : Memref sig .tc .vmem S32x128x1 .f32) (h3 : a3.IsWhole) (a4 : Memref sig .tc .vmem S32x128x1 .f32) (h4 : a4.IsWhole)
    (a5 : Memref sig .tc .vmem S32x128x3 .f32) (h5 : a5.IsWhole) (a6 : Memref sig .tc .vmem S32x128x4 .f32) (h6 : a6.IsWhole)
    (a7 : Memref sig .tc .vmem S32x128x9 .i32) (h7 : a7.IsWhole) (a8 : Memref sig .tc .vmem S1x1x1 .f32) (h8 : a8.IsWhole)
    (a9 : Memref sig .tc .vmem S1x1x1 .f32) (h9 : a9.IsWhole) (hc0 : ¬cond0_0 i) (hc1 : cond0_1 i)
    (x0 x1 x2 : Vec F S32x128x1 .f32) (x3 : Vec F S32x128x3 .f32) (x4 : Vec F S32x128x4 .f32) (x5 : Vec F S32x128x9 .i32)
    (xs0 : Vec F S1x1x1 .f32) :
    out0_C_6 c i a2 h2 a3 h3 a4 h4 a5 h5 a6 h6 a7 h7 a8 h8 a9 h9 hc0 hc1 x0 x1 x2 x3 x4 x5 xs0 = step x0 x1 x2 x3 x4 x5 xs0 := by
  unfold out0_C_6
  rw [View.read_writes_eq_canon _ _ _ (cover0_C_6 c i a2 h2 a3 h3 a4 h4 a5 h5 a6 h6 a7 h7 a8 h8 a9 h9 hc0 hc1 x0 x1 x2 x3 x4 x5 xs0)]
  unfold kernelRun0_C
  dsimp only
  sl_unfold_words
  rw [View.canon_unit_zero hz3, View.readCov_unit_zero (S := S1x1x1) _ hz3]
  simp only [View.readAt_eq_ld, h2.read_unread, h3.read_unread, h4.read_unread, h5.read_unread, h6.read_unread,
    h7.read_unread, h9.read_unread, View.ld_unit_zero (S := S32x128x1) hz3, View.ld_unit_zero (S := S32x128x3) hz3,
    View.ld_unit_zero (S := S32x128x4) hz3, View.ld_unit_zero (S := S32x128x9) hz3, View.ld_unit_zero (S := S1x1x1) hz3]
  rfl

/-- A first point of a sweep: zero is stored, read back, and the scratch ends at the step of zero. -/
theorem sout_first (c : Dev nD) (i : grid0.Coords) (a2 : Memref sig .tc .vmem S32x128x1 .f32) (h2 : a2.IsWhole)
    (a3 : Memref sig .tc .vmem S32x128x1 .f32) (h3 : a3.IsWhole) (a4 : Memref sig .tc .vmem S32x128x1 .f32) (h4 : a4.IsWhole)
    (a5 : Memref sig .tc .vmem S32x128x3 .f32) (h5 : a5.IsWhole) (a6 : Memref sig .tc .vmem S32x128x4 .f32) (h6 : a6.IsWhole)
    (a7 : Memref sig .tc .vmem S32x128x9 .i32) (h7 : a7.IsWhole) (a8 : Memref sig .tc .vmem S1x1x1 .f32) (h8 : a8.IsWhole)
    (a9 : Memref sig .tc .vmem S1x1x1 .f32) (h9 : a9.IsWhole) (hc0 : cond0_0 i) (hc1 : ¬cond0_1 i)
    (x0 x1 x2 : Vec F S32x128x1 .f32) (x3 : Vec F S32x128x3 .f32) (x4 : Vec F S32x128x4 .f32) (x5 : Vec F S32x128x9 .i32) :
    sout0_A_0 c i a2 h2 a3 h3 a4 h4 a5 h5 a6 h6 a7 h7 a8 h8 a9 h9 hc0 hc1 x0 x1 x2 x3 x4 x5 = step x0 x1 x2 x3 x4 x5 zeroTotal := by
  unfold sout0_A_0
  rw [View.read_writes_eq_canon _ _ _ (scover0_A_0 c i a2 h2 a3 h3 a4 h4 a5 h5 a6 h6 a7 h7 a8 h8 a9 h9 hc0 hc1 x0 x1 x2 x3 x4 x5)]
  unfold kernelRun0_A
  dsimp only
  sl_unfold_words
  rw [View.canon_cons_unit_zero (S := S1x1x1) hz3, View.readCov_unit_zero (S := S1x1x1) _ hz3]
  simp only [View.readAt_eq_ld, h2.read_unread, h3.read_unread, h4.read_unread, h5.read_unread, h6.read_unread,
    h7.read_unread, h9.read_unread, View.ld_unit_zero (S := S32x128x1) hz3, View.ld_unit_zero (S := S32x128x3) hz3,
    View.ld_unit_zero (S := S32x128x4) hz3, View.ld_unit_zero (S := S32x128x9) hz3, View.ld_unit_zero (S := S1x1x1) hz3]
  rfl

end Cert.KernelValue

end
-- ==== Proof.Accum.lean ====
/-
  The running total, point by point.

  A core sweeps its 256 sequence tiles in order; the grid's 512 points are the two sweeps one after the other. After
  point n the scratch holds the step of point n's blocks applied to what point n - 1 left, except at the first point of
  a sweep, where it is applied to zero. This is an induction over the points, one case per kind of point; at a last
  point of a sweep the output block holds the same word.
-/
import proofs.«134005_j8323646620405_1_alg».proof.Proof.Pieces

noncomputable section

namespace Cert.KernelValue

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- The step at point t: the step function of the six input blocks of that point. -/
def stepAt (c : Dev nD) (t : Fin cfg0.N) (a : Vec F S1x1x1 .f32) : Vec F S1x1x1 .f32 :=
  step (iblk m c 0 t) (iblk m c 1 t) (iblk m c 2 t) (iblk m c 3 t) (iblk m c 4 t) (iblk m c 5 t) a

/-- The running total after point n. -/
def total (c : Dev nD) : (n : ℕ) → n < cfg0.N → Vec F S1x1x1 .f32
  | 0, h => stepAt m c ⟨0, h⟩ zeroTotal
  | n + 1, h => if (n + 1) % 256 = 0 then stepAt m c ⟨n + 1, h⟩ zeroTotal
      else stepAt m c ⟨n + 1, h⟩ (total c n (Nat.lt_of_succ_lt h))

theorem total_first (c : Dev nD) (n : ℕ) (h : n + 1 < cfg0.N) (h0 : (n + 1) % 256 = 0) :
    total m c (n + 1) h = stepAt m c ⟨n + 1, h⟩ zeroTotal := by
  rw [total, if_pos h0]

theorem total_next (c : Dev nD) (n : ℕ) (h : n + 1 < cfg0.N) (h0 : ¬(n + 1) % 256 = 0) :
    total m c (n + 1) h = stepAt m c ⟨n + 1, h⟩ (total m c n (Nat.lt_of_succ_lt h)) := by
  rw [total, if_neg h0]

/-- The three kinds of point, at the point's own memrefs and blocks. -/
theorem sout_first_at (c : Dev nD) (t : Fin cfg0.N) (h0 : t.val % 256 = 0) (h1 : ¬t.val % 256 = 255) :
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)
      = stepAt m c t zeroTotal :=
  sout_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)

theorem sout_mid_at (c : Dev nD) (t : Fin cfg0.N) (h0 : ¬t.val % 256 = 0) (h1 : ¬t.val % 256 = 255) (a : Vec F S1x1x1 .f32) :
    sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) a
      = stepAt m c t a :=
  sout_mid c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) a

theorem sout_last_at (c : Dev nD) (t : Fin cfg0.N) (h0 : ¬t.val % 256 = 0) (h1 : t.val % 256 = 255) (a : Vec F S1x1x1 .f32) :
    sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) a
      = stepAt m c t a :=
  sout_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) a

theorem out_last_at (c : Dev nD) (t : Fin cfg0.N) (h0 : ¬t.val % 256 = 0) (h1 : t.val % 256 = 255) (a : Vec F S1x1x1 .f32) :
    out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) a
      = stepAt m c t a :=
  out_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) a

/-- After every point the scratch holds the running total. -/
theorem scratch_eq_total (c : Dev nD) : ∀ (n : ℕ) (h : n < cfg0.N), (outsAt0 m c n h).2 = total m c n h
  | 0, h =>
    (congrArg Prod.snd (outsAt0_A m c ⟨0, h⟩ (Nat.zero_mod _) (by show ¬(0 % 256 = 255); omega))).trans
      (sout_first_at m c ⟨0, h⟩ (Nat.zero_mod _) (by show ¬(0 % 256 = 255); omega))
  | n + 1, h => by
    have hN : n + 1 < 512 := lt_of_lt_of_eq h (show cfg0.N = 512 from N_0)
    by_cases h0 : (n + 1) % 256 = 0
    · have h1 : ¬(n + 1) % 256 = 255 := by omega
      refine (congrArg Prod.snd (outsAt0_A m c ⟨n + 1, h⟩ h0 h1)).trans ?_
      exact (sout_first_at m c ⟨n + 1, h⟩ h0 h1).trans (total_first m c n h h0).symm
    · by_cases h1 : (n + 1) % 256 = 255
      · refine (congrArg Prod.snd (outsAt0_C m c ⟨n + 1, h⟩ h0 h1)).trans ?_
        refine (sout_last_at m c ⟨n + 1, h⟩ h0 h1 _).trans ?_
        rw [total_next m c n h h0]
        exact congrArg (stepAt m c ⟨n + 1, h⟩) (scratch_eq_total c n (Nat.lt_of_succ_lt h))
      · refine (congrArg Prod.snd (outsAt0_B m c ⟨n + 1, h⟩ h0 h1)).trans ?_
        refine (sout_mid_at m c ⟨n + 1, h⟩ h0 h1 _).trans ?_
        rw [total_next m c n h h0]
        exact congrArg (stepAt m c ⟨n + 1, h⟩) (scratch_eq_total c n (Nat.lt_of_succ_lt h))

/-- At a last point of a sweep the output block holds the running total too. -/
theorem out_eq_total (c : Dev nD) (t : Fin cfg0.N) (h0 : ¬t.val % 256 = 0) (h1 : t.val % 256 = 255) :
    (outsAt0 m c t.val t.isLt).1 = total m c t.val t.isLt := by
  obtain ⟨n, h⟩ := t
  cases n with
  | zero => exact absurd (Nat.zero_mod _) h0
  | succ n =>
    refine (congrArg Prod.fst (outsAt0_C m c ⟨n + 1, h⟩ h0 h1)).trans ?_
    refine (out_last_at m c ⟨n + 1, h⟩ h0 h1 _).trans ?_
    rw [total_next m c n h h0]
    exact congrArg (stepAt m c ⟨n + 1, h⟩) (scratch_eq_total m c n (Nat.lt_of_succ_lt h))

end Cert.KernelValue

end
-- ==== Proof.OutArray.lean ====
/-
  The output array after the run.

  The output has one word per sweep. The last point of sweep s, point 256 s + 255, writes the running total of that
  point into entry (s, 0, 0) of the output array, and no other point writes it. The two last points cover the array,
  so after the run entry (s, 0, 0) holds the running total after point 256 s + 255.
-/
import proofs.«134005_j8323646620405_1_alg».proof.Proof.Accum
import Idealize.ShloMosaic.Lib.Pipeline.Value

noncomputable section

namespace Cert.KernelValue

open Idealize.ShloMosaic Idealize.ShloMosaic.TcCoe Idealize.SL.Sem Idealize.ShloMosaic.ValueIdx
open Cert.KernelIdeal Cert.KernelIdeal.Gen
open Idealize.ShloMosaic.Pipeline (Dat)

variable {F : FTy → Type} [FloatOps F] (m : (ℓ : Loc nD τ sig) → Buf (Elt F) ℓ)

/-- The last point of a sweep, for any first coordinate of an output index, is a point of the grid. -/
theorem sweepEnd_min_lt (k : ℕ) : 256 * min k 1 + 255 < cfg0.N := by
  rw [show cfg0.N = 512 from N_0]; omega

/-- The running total does not depend on how its point is written. -/
theorem total_congr (c : Dev nD) {n n' : ℕ} (e : n = n') (h : n < cfg0.N) (h' : n' < cfg0.N) :
    total m c n h = total m c n' h' := by subst e; rfl

/-- A block of one entry has one index. -/
theorem unit_idx_eq (i j : S1x1x1.Idx) : i = j := by
  funext a
  apply Fin.ext
  match a with
  | ⟨0, _⟩ => have hi : (i 0).val < 1 := (i 0).isLt; have hj : (j 0).val < 1 := (j 0).isLt; show (i 0).val = (j 0).val; omega
  | ⟨1, _⟩ => have hi : (i 1).val < 1 := (i 1).isLt; have hj : (j 1).val < 1 := (j 1).isLt; show (i 1).val = (j 1).val; omega
  | ⟨2, _⟩ => have hi : (i 2).val < 1 := (i 2).isLt; have hj : (j 2).val < 1 := (j 2).isLt; show (i 2).val = (j 2).val; omega

/-- The output array after the run: entry (s, 0, 0) is the running total after the last point of sweep s. -/
def outArr (c : Dev nD) : Buf (Elt F) ((c : Thread nD τ).loc main_v0) :=
  fun (i : S2x1x1.Idx) => total m c (256 * min (i 0).val 1 + 255) (sweepEnd_min_lt _) (ix3 0 0 0)

/-- Any entry of the output array, as the running total after a point written any way, at any index of the block. -/
theorem outArr_at (c : Dev nD) (i : S2x1x1.Idx) (n : ℕ) (h : n < cfg0.N) (hn : n = 256 * min (i 0).val 1 + 255)
    (j : S1x1x1.Idx) : outArr m c i = total m c n h j := by
  subst hn
  exact congrArg _ (unit_idx_eq _ _)

/-- Entry (s, 0, 0) of the output array. -/
theorem outArr_apply (c : Dev nD) (s : Fin 2) (h : 256 * s.val + 255 < cfg0.N) :
    outArr m c (ix3 s 0 0) = total m c (256 * s.val + 255) h (ix3 0 0 0) :=
  outArr_at m c (ix3 s 0 0) _ h (by show 256 * s.val + 255 = 256 * min s.val 1 + 255; have := s.isLt; omega) _

/-- The output window's block position at point t, decided over the grid. -/
theorem idx_facts6 : ∀ t : Fin cfg0.N, win0_6.index t 0 = t.val / 256 ∧ win0_6.index t 1 = 0 ∧ win0_6.index t 2 = 0 :=
  (by decide +kernel : ∀ t : Fin grid0.N, win0_6.index t 0 = t.val / 256 ∧ win0_6.index t 1 = 0 ∧ win0_6.index t 2 = 0)

/-- What a last point of a sweep writes back is the output array's entry there. -/
theorem flushed_out (c : Dev nD) (t : Fin cfg0.N) (hf : (cfg0.win 6).flush t = true) :
    (dats m 0 c).flushed 6 t = ((cfg0.win 6).blk t).view.read (Elt F) (outArr m c) := by
  have h1 : t.val % 256 = 255 := (flush0_6 t).mp hf
  have h0 : ¬t.val % 256 = 0 := by omega
  have hN : t.val < 512 := lt_of_lt_of_eq t.isLt N_0
  obtain ⟨i0, -, -⟩ := idx_facts6 t
  show (cfg0.win 6).cut (grid0.coords t) ((dats m 0 c).after 6 t) = _
  rw [after0_6, out_eq_total m c t h0 h1]
  funext y
  rw [View.read_apply]
  have hy : (y 0).val < 1 := (y 0).isLt
  refine (outArr_at m c _ t.val t.isLt ?_ _).symm
  show t.val = 256 * min (win0_6.index t 0 * 1 + 1 * (y 0).val) 1 + 255
  rw [i0]; omega

/-- The last point of sweep k, as a point of the grid. -/
def sweepEnd (k : ℕ) (hk : k < 2) : Fin cfg0.N := ⟨256 * k + 255, by rw [show cfg0.N = 512 from N_0]; omega⟩

theorem sweepEnd_val (k : ℕ) (hk : k < 2) : (sweepEnd k hk).val = 256 * k + 255 := rfl

/-- The two last points cover the output array, so after the run it is the array of the sweeps' totals. -/
theorem final_out (c : Dev nD) : (dats m 0 c).arrAt 6 cfg0.N = outArr m c :=
  (dats m 0 c).arrAt_eq_of_cover 6 (outArr m c) (flushed_out m c) fun i => by
    have hi0 : (i 0 : Nat) < 2 := (i 0).isLt
    have hi1 : (i 1 : Nat) < 1 := (i 1).isLt
    have hi2 : (i 2 : Nat) < 1 := (i 2).isLt
    have hv := sweepEnd_val (i 0 : Nat) hi0
    obtain ⟨e0, e1, e2⟩ := idx_facts6 (sweepEnd (i 0 : Nat) hi0)
    refine ⟨sweepEnd (i 0 : Nat) hi0, (flush0_6 _).mpr (by rw [hv]; omega), ?_⟩
    show i ∈ ((View.whole main_v0).slice (win0_6.rect (sweepEnd (i 0 : Nat) hi0))).set
    rw [View.set_slice_whole, Rect.mem_set_unit]
    intro a
    match a with
    | ⟨0, _⟩ =>
      show win0_6.index (sweepEnd (i 0 : Nat) hi0) 0 * 1 ≤ (i 0 : Nat)
        ∧ (i 0 : Nat) < win0_6.index (sweepEnd (i 0 : Nat) hi0) 0 * 1 + 1
      rw [e0, hv]; omega
    | ⟨1, _⟩ =>
      show win0_6.index (sweepEnd (i 0 : Nat) hi0) 1 * 1 ≤ (i 1 : Nat)
        ∧ (i 1 : Nat) < win0_6.index (sweepEnd (i 0 : Nat) hi0) 1 * 1 + 1
      rw [e1]; omega
    | ⟨2, _⟩ =>
      show win0_6.index (sweepEnd (i 0 : Nat) hi0) 2 * 1 ≤ (i 2 : Nat)
        ∧ (i 2 : Nat) < win0_6.index (sweepEnd (i 0 : Nat) hi0) 2 * 1 + 1
      rw [e2]; omega

end Cert.KernelValue

end
-- ==== Proof.TotalValue.lean ====
/-
  The running total in closed form, at the extended reals.

  A point adds to the running total the double sum of its block's per-position losses (its tile sum). So after point n
  the total is the zero word plus the tile sums of the points of n's own sweep up to n: the points n - n mod 256, …, n.
  After the last point of sweep s, point 256 s + 255, it is the zero word plus all 256 tile sums of that sweep.
-/
import proofs.«134005_j8323646620405_1_alg».proof.Proof.Accum

noncomputable section

open scoped BigOperators

namespace Cert.KernelValue

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The loss of entry (p, q) of the blocks at point t, with the stroke indicator "largest label". -/
def cellAt (c : Dev nD) (t : Fin cfg0.N) (p : Fin 32) (q : Fin 128) : EReal :=
  LossSpec.cell (LossSpec.strokeMax fun k => (iblk m c 5 t : Vec Ideal S32x128x9 .i32) (ix3 p q k))
    (fun k => (iblk m c 5 t : Vec Ideal S32x128x9 .i32) (ix3 p q k))
    ((iblk m c 0 t : Vec Ideal S32x128x1 .f32) (ix3 p q 0)) ((iblk m c 1 t : Vec Ideal S32x128x1 .f32) (ix3 p q 0))
    ((iblk m c 2 t : Vec Ideal S32x128x1 .f32) (ix3 p q 0))
    (fun k => (iblk m c 3 t : Vec Ideal S32x128x3 .f32) (ix3 p q k))
    (fun k => (iblk m c 4 t : Vec Ideal S32x128x4 .f32) (ix3 p q k))

/-- The tile sum of point n (zero beyond the grid). -/
def tileSum (c : Dev nD) (n : ℕ) : EReal :=
  if h : n < cfg0.N then ∑ p : Fin 32, ∑ q : Fin 128, cellAt m c ⟨n, h⟩ p q else 0

theorem tileSum_of_lt (c : Dev nD) (n : ℕ) (h : n < cfg0.N) :
    tileSum m c n = ∑ p : Fin 32, ∑ q : Fin 128, cellAt m c ⟨n, h⟩ p q := dif_pos h

/-- A point adds its tile sum to the total it is given. -/
theorem stepAt_apply (c : Dev nD) (t : Fin cfg0.N) (a : Vec Ideal S1x1x1 .f32) (i : S1x1x1.Idx) :
    stepAt m c t a i = a i + tileSum m c t.val := by
  rw [tileSum_of_lt m c t.val t.isLt]
  exact step_apply (iblk m c 0 t) (iblk m c 1 t) (iblk m c 2 t) (iblk m c 3 t) (iblk m c 4 t) (iblk m c 5 t) a i

/-- After point n: the zero word plus the tile sums of n's sweep up to n. -/
theorem total_closed (c : Dev nD) (i : S1x1x1.Idx) : ∀ (n : ℕ) (h : n < cfg0.N),
    total m c n h i = zeroTotal (F := Ideal) i + ∑ k ∈ Finset.range (n % 256 + 1), tileSum m c (n - n % 256 + k)
  | 0, h => by
    show stepAt m c ⟨0, h⟩ zeroTotal i = _
    rw [stepAt_apply, Nat.zero_mod, Finset.sum_range_one]
  | n + 1, h => by
    by_cases h0 : (n + 1) % 256 = 0
    · rw [total_first m c n h h0, stepAt_apply]
      have e1 : (n + 1) % 256 + 1 = 1 := by omega
      have e2 : n + 1 - (n + 1) % 256 = n + 1 := by omega
      rw [e1, e2, Finset.sum_range_one]
    · rw [total_next m c n h h0, stepAt_apply, total_closed c i n (Nat.lt_of_succ_lt h)]
      have e1 : (n + 1) % 256 = n % 256 + 1 := by omega
      have e2 : n + 1 - (n % 256 + 1) = n - n % 256 := by omega
      have e3 : n - n % 256 + (n % 256 + 1) = n + 1 := by omega
      rw [e1, e2, Finset.sum_range_succ _ (n % 256 + 1), e3, add_assoc]

/-- After the last point of sweep s: the zero word plus the sweep's 256 tile sums. -/
theorem total_sweep (c : Dev nD) (i : S1x1x1.Idx) (s : Fin 2) (h : 256 * s.val + 255 < cfg0.N) :
    total m c (256 * s.val + 255) h i
      = zeroTotal (F := Ideal) i + ∑ k : Fin 256, tileSum m c (256 * s.val + k.val) := by
  rw [total_closed m c i _ h]
  have e1 : (256 * s.val + 255) % 256 + 1 = 256 := by omega
  have e2 : 256 * s.val + 255 - (256 * s.val + 255) % 256 = 256 * s.val := by omega
  rw [e1, e2, Finset.sum_range]

end Cert.KernelValue

end
-- ==== Proof.Blocks.lean ====
/-
  Which entry of an argument array each entry of an input block is.

  The grid has 2 x 256 points; point t is sweep t / 256, step t % 256. At point t every input window holds the block
  of 32 rows and 128 columns (and all of the last axis) at block position (t / 256, t % 256, 0) of its array, so
  entry (p, q, k) of the block is entry (32 (t / 256) + p, 128 (t % 256) + q, k) of the array.
-/
import proofs.«134005_j8323646620405_1_alg».proof.Proof.Gen.KernelIdeal.Frame
import Idealize.ShloMosaic.Lib.Pipeline.Value
import Idealize.ShloMosaic.Lib.ValueIdx

noncomputable section

namespace Cert.KernelBlocks

open Cert.KernelIdeal Cert.KernelIdeal.Gen
open Idealize.ShloMosaic Idealize.ShloMosaic.TcCoe Idealize.SL.Sem Idealize.ShloMosaic.ValueIdx

variable {F : FTy → Type} [FloatOps F] (m : (ℓ : Loc nD τ sig) → Buf (Elt F) ℓ)

/-- The grid has 512 points. -/
theorem point_lt (t : Fin cfg0.N) : t.val < 512 := lt_of_lt_of_eq t.isLt N_0

/-- The array row of row p of the block at point t. -/
def row (t : Fin cfg0.N) (p : Fin 32) : Fin 64 :=
  ⟨32 * (t.val / 256) + p.val, by have := point_lt t; have := p.isLt; omega⟩

/-- The array column of column q of the block at point t. -/
def col (t : Fin cfg0.N) (q : Fin 128) : Fin 32768 :=
  ⟨128 * (t.val % 256) + q.val, by have := q.isLt; omega⟩

theorem row_val (t : Fin cfg0.N) (p : Fin 32) : (row t p).val = 32 * (t.val / 256) + p.val := rfl
theorem col_val (t : Fin cfg0.N) (q : Fin 128) : (col t q).val = 128 * (t.val % 256) + q.val := rfl

/-- Window 0's block position at point t, decided over the grid. -/
theorem idx_facts0 : ∀ t : Fin cfg0.N, win0_0.index t 0 = t.val / 256 ∧ win0_0.index t 1 = t.val % 256 ∧ win0_0.index t 2 = 0 :=
  (by decide +kernel : ∀ t : Fin grid0.N, win0_0.index t 0 = t.val / 256 ∧ win0_0.index t 1 = t.val % 256 ∧ win0_0.index t 2 = 0)

/-- Entry (p, q, k) of window 0's block at point t is entry (row t p, col t q, k) of argument 0. -/
theorem blk0 (c : Dev nD) (t : Fin cfg0.N) (p : Fin 32) (q : Fin 128) (k : Fin 1) :
    (iblk m c 0 t : Vec F S32x128x1 .f32) (ix3 p q k)
      = (m ((c : Thread nD τ).loc main_arg0) : S64x32768x1.Idx → Elt F .f32) (ix3 (row t p) (col t q) k) := by
  obtain ⟨h0, h1, h2⟩ := idx_facts0 t
  unfold iblk
  rw [View.read_apply]
  show V m c main_arg0 _ = m (c.tc.loc main_arg0) _
  unfold V
  congr 1
  funext a
  apply Fin.ext
  match a with
  | ⟨0, _⟩ => show win0_0.index t 0 * 32 + 1 * p.val = 32 * (t.val / 256) + p.val; rw [h0]; omega
  | ⟨1, _⟩ => show win0_0.index t 1 * 128 + 1 * q.val = 128 * (t.val % 256) + q.val; rw [h1]; omega
  | ⟨2, _⟩ => show win0_0.index t 2 * 1 + 1 * k.val = k.val; rw [h2]; omega

/-- Window 1's block position at point t, decided over the grid. -/
theorem idx_facts1 : ∀ t : Fin cfg0.N, win0_1.index t 0 = t.val / 256 ∧ win0_1.index t 1 = t.val % 256 ∧ win0_1.index t 2 = 0 :=
  (by decide +kernel : ∀ t : Fin grid0.N, win0_1.index t 0 = t.val / 256 ∧ win0_1.index t 1 = t.val % 256 ∧ win0_1.index t 2 = 0)

/-- Entry (p, q, k) of window 1's block at point t is entry (row t p, col t q, k) of argument 1. -/
theorem blk1 (c : Dev nD) (t : Fin cfg0.N) (p : Fin 32) (q : Fin 128) (k : Fin 1) :
    (iblk m c 1 t : Vec F S32x128x1 .f32) (ix3 p q k)
      = (m ((c : Thread nD τ).loc main_arg1) : S64x32768x1.Idx → Elt F .f32) (ix3 (row t p) (col t q) k) := by
  obtain ⟨h0, h1, h2⟩ := idx_facts1 t
  unfold iblk
  rw [View.read_apply]
  show V m c main_arg1 _ = m (c.tc.loc main_arg1) _
  unfold V
  congr 1
  funext a
  apply Fin.ext
  match a with
  | ⟨0, _⟩ => show win0_1.index t 0 * 32 + 1 * p.val = 32 * (t.val / 256) + p.val; rw [h0]; omega
  | ⟨1, _⟩ => show win0_1.index t 1 * 128 + 1 * q.val = 128 * (t.val % 256) + q.val; rw [h1]; omega
  | ⟨2, _⟩ => show win0_1.index t 2 * 1 + 1 * k.val = k.val; rw [h2]; omega

/-- Window 2's block position at point t, decided over the grid. -/
theorem idx_facts2 : ∀ t : Fin cfg0.N, win0_2.index t 0 = t.val / 256 ∧ win0_2.index t 1 = t.val % 256 ∧ win0_2.index t 2 = 0 :=
  (by decide +kernel : ∀ t : Fin grid0.N, win0_2.index t 0 = t.val / 256 ∧ win0_2.index t 1 = t.val % 256 ∧ win0_2.index t 2 = 0)

/-- Entry (p, q, k) of window 2's block at point t is entry (row t p, col t q, k) of argument 2. -/
theorem blk2 (c : Dev nD) (t : Fin cfg0.N) (p : Fin 32) (q : Fin 128) (k : Fin 1) :
    (iblk m c 2 t : Vec F S32x128x1 .f32) (ix3 p q k)
      = (m ((c : Thread nD τ).loc main_arg2) : S64x32768x1.Idx → Elt F .f32) (ix3 (row t p) (col t q) k) := by
  obtain ⟨h0, h1, h2⟩ := idx_facts2 t
  unfold iblk
  rw [View.read_apply]
  show V m c main_arg2 _ = m (c.tc.loc main_arg2) _
  unfold V
  congr 1
  funext a
  apply Fin.ext
  match a with
  | ⟨0, _⟩ => show win0_2.index t 0 * 32 + 1 * p.val = 32 * (t.val / 256) + p.val; rw [h0]; omega
  | ⟨1, _⟩ => show win0_2.index t 1 * 128 + 1 * q.val = 128 * (t.val % 256) + q.val; rw [h1]; omega
  | ⟨2, _⟩ => show win0_2.index t 2 * 1 + 1 * k.val = k.val; rw [h2]; omega

/-- Window 3's block position at point t, decided over the grid. -/
theorem idx_facts3 : ∀ t : Fin cfg0.N, win0_3.index t 0 = t.val / 256 ∧ win0_3.index t 1 = t.val % 256 ∧ win0_3.index t 2 = 0 :=
  (by decide +kernel : ∀ t : Fin grid0.N, win0_3.index t 0 = t.val / 256 ∧ win0_3.index t 1 = t.val % 256 ∧ win0_3.index t 2 = 0)

/-- Entry (p, q, k) of window 3's block at point t is entry (row t p, col t q, k) of argument 3. -/
theorem blk3 (c : Dev nD) (t : Fin cfg0.N) (p : Fin 32) (q : Fin 128) (k : Fin 3) :
    (iblk m c 3 t : Vec F S32x128x3 .f32) (ix3 p q k)
      = (m ((c : Thread nD τ).loc main_arg3) : S64x32768x3.Idx → Elt F .f32) (ix3 (row t p) (col t q) k) := by
  obtain ⟨h0, h1, h2⟩ := idx_facts3 t
  unfold iblk
  rw [View.read_apply]
  show V m c main_arg3 _ = m (c.tc.loc main_arg3) _
  unfold V
  congr 1
  funext a
  apply Fin.ext
  match a with
  | ⟨0, _⟩ => show win0_3.index t 0 * 32 + 1 * p.val = 32 * (t.val / 256) + p.val; rw [h0]; omega
  | ⟨1, _⟩ => show win0_3.index t 1 * 128 + 1 * q.val = 128 * (t.val % 256) + q.val; rw [h1]; omega
  | ⟨2, _⟩ => show win0_3.index t 2 * 3 + 1 * k.val = k.val; rw [h2]; omega

/-- Window 4's block position at point t, decided over the grid. -/
theorem idx_facts4 : ∀ t : Fin cfg0.N, win0_4.index t 0 = t.val / 256 ∧ win0_4.index t 1 = t.val % 256 ∧ win0_4.index t 2 = 0 :=
  (by decide +kernel : ∀ t : Fin grid0.N, win0_4.index t 0 = t.val / 256 ∧ win0_4.index t 1 = t.val % 256 ∧ win0_4.index t 2 = 0)

/-- Entry (p, q, k) of window 4's block at point t is entry (row t p, col t q, k) of argument 4. -/
theorem blk4 (c : Dev nD) (t : Fin cfg0.N) (p : Fin 32) (q : Fin 128) (k : Fin 4) :
    (iblk m c 4 t : Vec F S32x128x4 .f32) (ix3 p q k)
      = (m ((c : Thread nD τ).loc main_arg4) : S64x32768x4.Idx → Elt F .f32) (ix3 (row t p) (col t q) k) := by
  obtain ⟨h0, h1, h2⟩ := idx_facts4 t
  unfold iblk
  rw [View.read_apply]
  show V m c main_arg4 _ = m (c.tc.loc main_arg4) _
  unfold V
  congr 1
  funext a
  apply Fin.ext
  match a with
  | ⟨0, _⟩ => show win0_4.index t 0 * 32 + 1 * p.val = 32 * (t.val / 256) + p.val; rw [h0]; omega
  | ⟨1, _⟩ => show win0_4.index t 1 * 128 + 1 * q.val = 128 * (t.val % 256) + q.val; rw [h1]; omega
  | ⟨2, _⟩ => show win0_4.index t 2 * 4 + 1 * k.val = k.val; rw [h2]; omega

/-- Window 5's block position at point t, decided over the grid. -/
theorem idx_facts5 : ∀ t : Fin cfg0.N, win0_5.index t 0 = t.val / 256 ∧ win0_5.index t 1 = t.val % 256 ∧ win0_5.index t 2 = 0 :=
  (by decide +kernel : ∀ t : Fin grid0.N, win0_5.index t 0 = t.val / 256 ∧ win0_5.index t 1 = t.val % 256 ∧ win0_5.index t 2 = 0)

/-- Entry (p, q, k) of window 5's block at point t is entry (row t p, col t q, k) of argument 5. -/
theorem blk5 (c : Dev nD) (t : Fin cfg0.N) (p : Fin 32) (q : Fin 128) (k : Fin 9) :
    (iblk m c 5 t : Vec F S32x128x9 .i32) (ix3 p q k)
      = (m ((c : Thread nD τ).loc main_arg5) : S64x32768x9.Idx → Elt F .i32) (ix3 (row t p) (col t q) k) := by
  obtain ⟨h0, h1, h2⟩ := idx_facts5 t
  unfold iblk
  rw [View.read_apply]
  show V m c main_arg5 _ = m (c.tc.loc main_arg5) _
  unfold V
  congr 1
  funext a
  apply Fin.ext
  match a with
  | ⟨0, _⟩ => show win0_5.index t 0 * 32 + 1 * p.val = 32 * (t.val / 256) + p.val; rw [h0]; omega
  | ⟨1, _⟩ => show win0_5.index t 1 * 128 + 1 * q.val = 128 * (t.val % 256) + q.val; rw [h1]; omega
  | ⟨2, _⟩ => show win0_5.index t 2 * 9 + 1 * k.val = k.val; rw [h2]; omega

end Cert.KernelBlocks

end
-- ==== Proof.Labels.lean ====
/-
  Three facts about the labels and about sums over all positions.

  (1) The precondition ends in the test "every label word is 0 or 1"; read back, it gives exactly that of every word.
  (2) On nine words that are each 0 or 1, the largest of them read as numbers (from minus infinity) is 1 when some word
      is 1 and 0 otherwise; and the disjunction of the tests "word k is 1", read as a number, is the same.
  (3) A sum over 64 rows and 32768 columns may be taken tile by tile: row 32 c + p for c < 2, p < 32, column
      128 s + q for s < 256, q < 128, in the order c, s, p, q.
-/
import proofs.«134005_j8323646620405_1_alg».proof.Pre_finite_inputs
import proofs.«134005_j8323646620405_1_alg».proof.Proof.Gen.Pre_finite_inputs
import proofs.«134005_j8323646620405_1_alg».proof.Proof.Spec
import Idealize.ShloMosaic.Lib.ReduceAll
import Idealize.ShloMosaic.Lib.ValueIdx
import Idealize.ShloMosaic.PureOps.Ideal.Laws

noncomputable section

open scoped BigOperators

namespace Cert.Labels

open Idealize.ShloMosaic

/-! ## (3) A sum over a product range, tile by tile -/

section Sums

variable {M : Type*} [AddCommMonoid M]

/-- Position n c + p, for c < m and p < n, lies below m n. -/
theorem tile_lt {m n : ℕ} (c : Fin m) (p : Fin n) : n * c.val + p.val < m * n := by
  have h1 : n * (c.val + 1) ≤ n * m := Nat.mul_le_mul_left n c.isLt
  have h2 := p.isLt
  rw [Nat.mul_add, Nat.mul_one] at h1
  rw [Nat.mul_comm m n]
  omega

/-- A sum over N = m n indices is the sum over the m tiles of the sums over the n places of a tile. -/
theorem sum_tiles (m n N : ℕ) (h : m * n = N) (g : Fin N → M) :
    ∑ i : Fin N, g i = ∑ c : Fin m, ∑ p : Fin n, g ⟨n * c.val + p.val, h ▸ tile_lt c p⟩ := by
  subst h
  rw [← finProdFinEquiv.sum_comp, Fintype.sum_prod_type]
  refine Finset.sum_congr rfl fun c _ => Finset.sum_congr rfl fun p _ => congrArg g (Fin.ext ?_)
  simp only [finProdFinEquiv_apply_val]
  omega

/-- The sum over all 64 x 32768 positions, taken over the 2 x 256 tiles of 32 rows by 128 columns. -/
theorem sum_blocks (f : Fin 64 → Fin 32768 → M) :
    ∑ c : Fin 2, ∑ s : Fin 256, ∑ p : Fin 32, ∑ q : Fin 128,
        f ⟨32 * c.val + p.val, by omega⟩ ⟨128 * s.val + q.val, by omega⟩
      = ∑ b : Fin 64, ∑ j : Fin 32768, f b j := by
  rw [sum_tiles 2 32 64 rfl (fun b => ∑ j : Fin 32768, f b j)]
  refine Finset.sum_congr rfl fun c _ => ?_
  rw [Finset.sum_comm]
  refine Finset.sum_congr rfl fun p _ => ?_
  exact (sum_tiles 256 128 32768 rfl (fun j => f ⟨32 * c.val + p.val, by omega⟩ j)).symm

end Sums

/-! ## (1) From the precondition to the labels' domain -/

section Domain

open Cert.Pre_finite_inputs

/-- The result of the precondition has one index. -/
instance : Subsingleton S_.Idx := ⟨fun a b => funext fun d => d.elim0⟩

/-- A word for which "equal to 0 or equal to 1" tests true is 0 or 1. -/
theorem word_binary {x : BitVec 32}
    (h : IntOp.ori (IntOp.cmpi .eq x 0#32) (IntOp.cmpi .eq x 1#32) = 1#1) : x = 0#32 ∨ x = 1#32 := by
  rcases IntOp.ori_eq_one.1 h with h | h
  · exact Or.inl (IntOp.cmpi_eq.1 h)
  · exact Or.inr (IntOp.cmpi_eq.1 h)

/-- Under the precondition every label word is 0 or 1: the last conjunct of its conjunction is the test
    "all of (y = 0) or (y = 1)", and a conjunction over all positions that holds, holds at each. -/
theorem binary_of_pre [Facts] (a0 a1 a2 : FVec Ideal S64x32768x1 .f32) (a3 : FVec Ideal S64x32768x3 .f32)
    (a4 : FVec Ideal S64x32768x4 .f32) (a5 : IVec S64x32768x9 32)
    (h : fn (F := Ideal) a0 a1 a2 a3 a4 a5 = fun _ => 1#1) : ∀ i, a5 i = 0#32 ∨ a5 i = 1#32 := by
  intro i
  have h0 := congrFun h ValueIdx.ix0
  dsimp only [fn, fn_part1] at h0
  have h1 := (IntOp.andi_eq_one.1 h0).2
  exact word_binary (Host.reduce_andi_all _ _ _ _ _ h1 i)

end Domain

/-! ## (2) The two stroke indicators agree on labels that are 0 or 1 -/

section Stroke

open Cert.LossSpec

/-- The word of minus infinity is the least extended real. -/
theorem negInf_eq_bot : Ideal.ofBits .f32 0xFF800000#32 = (⊥ : EReal) := by simp [Ideal.ofBits, Ideal.ieee]

/-- A disjunction over a finite family of bits, from the bit 0, is the bit 1 exactly when some member is. -/
theorem fold_ori_eq_one {ι : Type} [DecidableEq ι] (s : Finset ι) (g : ι → BitVec 1) :
    s.fold IntOp.ori 0#1 g = 1#1 ↔ ∃ k ∈ s, g k = 1#1 := by
  induction s using Finset.induction_on with
  | empty => simp
  | insert a s ha ih =>
    rw [Finset.fold_insert ha, IntOp.ori_eq_one, ih]
    constructor
    · rintro (h | ⟨k, hk, h⟩)
      · exact ⟨a, Finset.mem_insert_self a s, h⟩
      · exact ⟨k, Finset.mem_insert_of_mem hk, h⟩
    · rintro ⟨k, hk, h⟩
      rcases Finset.mem_insert.1 hk with rfl | hk
      · exact Or.inl h
      · exact Or.inr ⟨k, hk, h⟩

/-- A bit that is not 1 is 0. -/
theorem bit_eq_zero_of_ne_one {b : BitVec 1} (h : b ≠ 1#1) : b = 0#1 := by revert b; decide

/-- Some label is 1: the largest label is 1. -/
theorem strokeMax_of_one (y : Fin 9 → BitVec 32) (hb : ∀ k, y k = 0#32 ∨ y k = 1#32) (k0 : Fin 9)
    (h1 : y k0 = 1#32) : strokeMax y = 1 := by
  unfold strokeMax
  apply le_antisymm
  · rw [Finset.fold_max_le]
    refine ⟨by rw [negInf_eq_bot]; exact bot_le, fun k _ => ?_⟩
    rcases hb k with h | h <;> rw [h] <;> norm_num
  · rw [Finset.le_fold_max]
    exact Or.inr ⟨k0, Finset.mem_univ _, by rw [h1]; norm_num⟩

/-- All labels are 0: the largest label is 0. -/
theorem strokeMax_of_zero (y : Fin 9 → BitVec 32) (h0 : ∀ k, y k = 0#32) : strokeMax y = 0 := by
  unfold strokeMax
  apply le_antisymm
  · rw [Finset.fold_max_le]
    refine ⟨by rw [negInf_eq_bot]; exact bot_le, fun k _ => ?_⟩
    rw [h0 k]; norm_num
  · rw [Finset.le_fold_max]
    exact Or.inr ⟨0, Finset.mem_univ _, by rw [h0 0]; norm_num⟩

/-- Some label is 1: the disjunction of the tests reads 1. -/
theorem strokeAny_of_one (y : Fin 9 → BitVec 32) (k0 : Fin 9) (h1 : y k0 = 1#32) : strokeAny y = 1 := by
  unfold strokeAny
  rw [(fold_ori_eq_one _ _).2 ⟨k0, Finset.mem_univ _, IntOp.cmpi_eq.2 h1⟩]
  norm_num

/-- No label is 1: the disjunction of the tests reads 0. -/
theorem strokeAny_of_none (y : Fin 9 → BitVec 32) (h : ∀ k, y k ≠ 1#32) : strokeAny y = 0 := by
  have hz : (Finset.univ : Finset (Fin 9)).fold IntOp.ori 0#1 (fun k => IntOp.cmpi .eq (y k) 1#32) = 0#1 :=
    bit_eq_zero_of_ne_one fun e => by
      obtain ⟨k, -, hk⟩ := (fold_ori_eq_one _ _).1 e
      exact h k (IntOp.cmpi_eq.1 hk)
  unfold strokeAny
  rw [hz]
  norm_num

/-- On labels that are each 0 or 1 the largest label and the test "some label is 1" are the same number. -/
theorem stroke_eq (y : Fin 9 → BitVec 32) (hb : ∀ k, y k = 0#32 ∨ y k = 1#32) :
    Cert.LossSpec.strokeMax y = Cert.LossSpec.strokeAny y := by
  by_cases hex : ∃ k, y k = 1#32
  · obtain ⟨k0, h1⟩ := hex
    rw [strokeMax_of_one y hb k0 h1, strokeAny_of_one y k0 h1]
  · have hne : ∀ k, y k ≠ 1#32 := fun k e => hex ⟨k, e⟩
    have h0 : ∀ k, y k = 0#32 := fun k => (hb k).resolve_right (hne k)
    rw [strokeMax_of_zero y h0, strokeAny_of_none y hne]

end Stroke

end Cert.Labels

end
-- ==== Proof.LibIdxSums.lean ====
/-
  General lemmas, no program in sight (they import only the library):

  * sums over a rank-1 or rank-3 index set as iterated sums over the coordinates (the library has rank 2), from the
    equivalences of those index sets with (products of) coordinate ranges;
  * a sum over the m·n positions of a row-major table as the sum over rows of the sums along each row;
  * a one-bit comparison result widened with zeros to 32 bits and converted as a SIGNED integer is the bit converted as an
    UNSIGNED one, at the extended reals: the two spellings of bool.astype(float32) that a kernel and a host program print.
-/
import Idealize.ShloMosaic.PureOps.Ideal
import Idealize.ShloMosaic.Lib.ValueIdx

noncomputable section

open scoped BigOperators

namespace Cert.LibIdxSums

open Idealize.ShloMosaic Idealize.ShloMosaic.ValueIdx

/-! ## A one-bit mask as a float -/

/-- A one-bit word widened with zeros and read as a signed integer is the bit read unsigned: 0 or 1. -/
theorem mask_word (b : BitVec 1) :
    (FloatOps.sitofp (F := Ideal) .f32 (b.setWidth 32) : EReal) = FloatOps.uitofp (F := Ideal) .f32 b := by
  have hb : b = 0#1 ∨ b = 1#1 := by revert b; decide
  rcases hb with rfl | rfl
  · show (((BitVec.setWidth 32 0#1).toInt : ℝ) : EReal) = (((0#1 : BitVec 1).toNat : ℝ) : EReal)
    have h1 : (BitVec.setWidth 32 0#1).toInt = 0 := by decide
    have h2 : (0#1 : BitVec 1).toNat = 0 := by decide
    rw [h1, h2]; simp
  · show (((BitVec.setWidth 32 1#1).toInt : ℝ) : EReal) = (((1#1 : BitVec 1).toNat : ℝ) : EReal)
    have h1 : (BitVec.setWidth 32 1#1).toInt = 1 := by decide
    have h2 : (1#1 : BitVec 1).toNat = 1 := by decide
    rw [h1, h2]; simp

/-! ## Sums over index sets by coordinates -/

/-- A rank-1 index set is its coordinate range. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  simp only [Fintype.sum_prod_type]
  rfl

/-- A sum over m·n positions, row by row. -/
theorem sum_fin_mul {M : Type*} [AddCommMonoid M] (m n : ℕ) (f : ℕ → M) :
    ∑ p : Fin (m * n), f p.val = ∑ a : Fin m, ∑ b : Fin n, f (a.val * n + b.val) := by
  rw [← Equiv.sum_comp finProdFinEquiv, Fintype.sum_prod_type]
  refine Finset.sum_congr rfl fun a _ => Finset.sum_congr rfl fun b _ => ?_
  rw [finProdFinEquiv_apply_val, Nat.mul_comm, Nat.add_comm]

end Cert.LibIdxSums

end
-- ==== Proof.KernelRun.lean ====
/-
  The kernel program's result.

  After the call the program adds the two sweeps' totals from the zero word, divides by the word of 2^21 and recasts the
  scalar as a one-entry vector. The call leaves the two totals in the output array; each is the zero word plus the 256
  tile sums of its sweep. So the result is the zero word plus, over both sweeps, the zero word plus the sweep's tile
  sums, divided by the word of 2^21; with the zero word read as the number zero this is the mean over all positions of
  the per-position loss taken with the stroke indicator "largest label".
-/
import proofs.«134005_j8323646620405_1_alg».proof.Proof.OutArray
import proofs.«134005_j8323646620405_1_alg».proof.Proof.TotalValue
import proofs.«134005_j8323646620405_1_alg».proof.Proof.Blocks
import proofs.«134005_j8323646620405_1_alg».proof.Proof.Labels
import proofs.«134005_j8323646620405_1_alg».proof.Proof.LibIdxSums
import Idealize.ShloMosaic.Lib.StableHlo.Run

noncomputable section

open scoped BigOperators

namespace Cert.KernelValue

open Idealize.ShloMosaic Idealize.ShloMosaic.TcCoe Idealize.SL.Sem Idealize.ShloMosaic.ValueIdx
open Idealize.ShloMosaic.StableHlo
open Cert.KernelIdeal Cert.KernelIdeal.Gen
open Idealize.ShloMosaic.Pipeline (Dat)

section Run

variable {F : FTy → Type} [FloatOps F]
variable (m : (ℓ : Loc nD τ sig) → Buf (Elt F) ℓ) (ρ : Dev nD → PrngReg)

/-- The host lines after the call, as one function of the output array. -/
def tail (a : (⟨S2x1x1, .f32⟩ : BufTy).Contents (Elt F)) : (⟨S1, .f32⟩ : BufTy).Contents (Elt F) :=
  shapeCast S1 (Host.divf (Host.reduceAdd a (constant (F := F) S_ .f32 0x00000000#32) reducesTo_S2x1x1_S_d0_1_2 h_S_)
    (constant (F := F) S_ .f32 0x4A000000#32)) shapeCasts_S_S1

/-- What the lines after the call leave in the result buffer: the tail of the output array the call left. -/
theorem tail_eq (c : Dev nD) :
    Pipeline.afterTail₀ cfgs (dats m) 0 (V0 m) [hostOps1] c main_v3 = tail (outArr m c) := by
  unfold Pipeline.afterTail₀
  show StableHlo.after hostOps1 _ (Proc.devRef .tc main_v3) = _
  after_results
  rw [(Pipeline.withArrays_arr spec0 launch0.win.arr_inj c _ _ 6).trans (final_out m c)]
  rfl

/-- The run, read: the result buffer at the tail of the output array, the arguments unchanged. -/
theorem run : θ_run defs (onTc (τ := τ) (main (F := F))) ⟨m, fun _ => 0, ρ⟩ fun r => ∀ c : Dev nD,
      r.2.mem ((c.tc : Thread nD τ).loc main_v3) = tail (outArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).2 main_v3 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

end Run

/-! ## The result as a mean -/

/-- The tail at the extended reals: the zero word plus the two entries, over the word of 2^21. -/
theorem tail_apply (a : S2x1x1.Idx → EReal) (i : S1.Idx) :
    tail (F := Ideal) a i
      = Ideal.div (Ideal.ofBits .f32 0x00000000#32 + ∑ s : Fin 2, a (ix3 s 0 0)) (Ideal.ofBits .f32 0x4A000000#32) := by
  unfold tail
  have e : ∀ (v : S_.Idx → EReal), shapeCast S1 v shapeCasts_S_S1 i = v ix0 := fun v => by
    unfold shapeCast
    exact congrArg v (funext fun d => d.elim0)
  rw [e]
  show Ideal.div (Host.reduceAdd (F := Ideal) a (constant (F := Ideal) S_ .f32 0x00000000#32) reducesTo_S2x1x1_S_d0_1_2 h_S_ ix0) _ = _
  congr 1
  simp only [Host.reduceAdd, Ideal.hostReduceAdd_def]
  refine (Ideal.hostReduceAdd_total reducesTo_S2x1x1_S_d0_1_2 (fun b => b.elim0) a _ ix0).trans ?_
  congr 1
  rw [Cert.LibIdxSums.sum_idx3]
  refine Finset.sum_congr rfl fun s _ => ?_
  rw [Fin.sum_univ_one, Fin.sum_univ_one]

end Cert.KernelValue

end
-- ==== Proof.KernelMean.lean ====
/-
  The kernel program's result is the mean loss.

  Entry (p, q) of the blocks at grid point 256 s + k is position (32 s + p, 128 k + q) of the argument arrays, so a tile
  sum is the sum of the per-position losses over that tile of positions; the two sweeps' 256 tiles each cover all
  64 x 32768 positions once. On labels that are all zero or one the stroke indicator "largest label" is the indicator
  "some label is one". So the kernel program's result is the specification's mean, taken with the latter indicator.
-/
import proofs.«134005_j8323646620405_1_alg».proof.Proof.KernelRun

noncomputable section

open scoped BigOperators

namespace Cert.KernelValue

open Idealize.ShloMosaic Idealize.ShloMosaic.TcCoe Idealize.SL.Sem Idealize.ShloMosaic.ValueIdx
open Cert.KernelIdeal Cert.KernelIdeal.Gen Cert.KernelBlocks

/-- The per-position loss over the six argument arrays, for a given stroke indicator. -/
def lossOf (ys : (Fin 9 → BitVec 32) → EReal) (x0 x1 x2 : S64x32768x1.Idx → EReal) (x3 : S64x32768x3.Idx → EReal)
    (x4 : S64x32768x4.Idx → EReal) (x5 : S64x32768x9.Idx → BitVec 32) (b : Fin 64) (j : Fin 32768) : EReal :=
  LossSpec.cell (ys fun k => x5 (ix3 b j k)) (fun k => x5 (ix3 b j k)) (x0 (ix3 b j 0)) (x1 (ix3 b j 0)) (x2 (ix3 b j 0))
    (fun k => x3 (ix3 b j k)) (fun k => x4 (ix3 b j k))

variable (m : (ℓ : Loc nD τ sig) → Buf (Elt Ideal) ℓ)

/-- The zero word the sweeps start from is the number zero. -/
theorem zeroTotal_apply (i : S1x1x1.Idx) : zeroTotal (F := Ideal) i = 0 := by
  unfold zeroTotal k0_pay2
  rw [shapeCast_self]
  exact Ideal.ofBits_zero_f32

/-- A block entry's loss is the loss of its position in the argument arrays. -/
theorem cellAt_eq (c : Dev nD) (t : Fin cfg0.N) (p : Fin 32) (q : Fin 128) :
    cellAt m c t p q = lossOf LossSpec.strokeMax
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (row t p) (col t q) := by
  unfold cellAt lossOf
  simp only [blk0 m c t p q, blk1 m c t p q, blk2 m c t p q, blk3 m c t p q, blk4 m c t p q, blk5 m c t p q]

/-- On labels that are all zero or one, with either indicator. -/
theorem lossOf_stroke (x0 x1 x2 : S64x32768x1.Idx → EReal) (x3 : S64x32768x3.Idx → EReal)
    (x4 : S64x32768x4.Idx → EReal) (x5 : S64x32768x9.Idx → BitVec 32) (hb : ∀ i, x5 i = 0#32 ∨ x5 i = 1#32)
    (b : Fin 64) (j : Fin 32768) :
    lossOf LossSpec.strokeMax x0 x1 x2 x3 x4 x5 b j = lossOf LossSpec.strokeAny x0 x1 x2 x3 x4 x5 b j := by
  unfold lossOf
  rw [Cert.Labels.stroke_eq (fun k => x5 (ix3 b j k)) (fun k => hb _)]

/-- The tile sum of point 256 s + k: the losses of rows 32 s .. 32 s + 31, positions 128 k .. 128 k + 127. -/
theorem tileSum_eq (c : Dev nD) (s : Fin 2) (k : Fin 256)
    (hb : ∀ i, (m ((c : Thread nD τ).loc main_arg5) : S64x32768x9.Idx → BitVec 32) i = 0#32
      ∨ (m ((c : Thread nD τ).loc main_arg5) : S64x32768x9.Idx → BitVec 32) i = 1#32) :
    tileSum m c (256 * s.val + k.val) = ∑ p : Fin 32, ∑ q : Fin 128, lossOf LossSpec.strokeAny
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      ⟨32 * s.val + p.val, by omega⟩ ⟨128 * k.val + q.val, by omega⟩ := by
  have hlt : 256 * s.val + k.val < cfg0.N := by rw [show cfg0.N = 512 from N_0]; omega
  rw [tileSum_of_lt m c _ hlt]
  refine Finset.sum_congr rfl fun p _ => Finset.sum_congr rfl fun q _ => ?_
  rw [cellAt_eq, lossOf_stroke _ _ _ _ _ _ hb]
  have er : row ⟨256 * s.val + k.val, hlt⟩ p = ⟨32 * s.val + p.val, by omega⟩ :=
    Fin.ext (by rw [row_val]; show 32 * ((256 * s.val + k.val) / 256) + p.val = 32 * s.val + p.val; omega)
  have ec : col ⟨256 * s.val + k.val, hlt⟩ q = ⟨128 * k.val + q.val, by omega⟩ :=
    Fin.ext (by rw [col_val]; show 128 * ((256 * s.val + k.val) % 256) + q.val = 128 * k.val + q.val; omega)
  rw [er, ec]

/-- The kernel program's result: the mean, over all positions, of the loss with the indicator "some label is one". -/
theorem kernel_value (c : Dev nD)
    (hb : ∀ i, (m ((c : Thread nD τ).loc main_arg5) : S64x32768x9.Idx → BitVec 32) i = 0#32
      ∨ (m ((c : Thread nD τ).loc main_arg5) : S64x32768x9.Idx → BitVec 32) i = 1#32) :
    tail (F := Ideal) (outArr m c) = fun _ => LossSpec.mean (lossOf LossSpec.strokeAny
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))) := by
  funext i
  rw [tail_apply]
  unfold LossSpec.mean
  refine congrArg (fun x => Ideal.div (Ideal.ofBits .f32 0x00000000#32 + x) (Ideal.ofBits .f32 0x4A000000#32)) ?_
  rw [← Cert.Labels.sum_blocks]
  refine Finset.sum_congr rfl fun s _ => ?_
  have hs : 256 * s.val + 255 < cfg0.N := by rw [show cfg0.N = 512 from N_0]; omega
  rw [outArr_apply m c s hs, total_sweep m c _ s hs, zeroTotal_apply, zero_add]
  exact Finset.sum_congr rfl fun k _ => tileSum_eq m c s k hb

end Cert.KernelValue

end
-- ==== Proof.RefValue.lean ====
/-
  The reference program's result is the specification's mean loss, with the stroke indicator "some label is one".

  Position (b, j) of the batch has nine label words, three single probabilities (stroke, player, hand), three point-class
  probabilities and four serve-class probabilities. The reference forms, position by position,
    · the stroke indicator: the disjunction over the nine labels of "the label equals one", read as a number;
    · the player and hand indicators: zero when label 0 (label 7) equals one, one otherwise;
    · the point class 0, 1, 2 and the serve class 0, 1, 2, 3: the position of the first label among 4, 5 (among 2, 3, 6)
      that equals one, the last class when none does;
    · three binary cross-entropies, and minus the logarithm of the probability of the chosen point class and of the
      chosen serve class, each probability taken along the class axis at the class number;
  adds the stroke cross-entropy to the stroke indicator times the sum of the other four, sums over all positions from
  the zero word and divides by the word of 2^21.

  The class number is always below the number of classes, so taking along the class axis never meets its out-of-range
  case: the wrap-around of a negative number leaves the class number alone, the range test passes, and the clamp of the
  start index is the identity. Everything else is read position by position: a [64, 32768, 1] column at (b, j, 0), the
  slice of label k at (b, j, k), the disjunction over the label axis as a fold over its nine coordinates.
-/
import proofs.«134005_j8323646620405_1_alg».proof.Proof.RefRead
import proofs.«134005_j8323646620405_1_alg».proof.Proof.Spec
import Idealize.ShloMosaic.Lib.ValueIdx
import Idealize.ShloMosaic.Lib.Pipeline.Value
import Idealize.ShloMosaic.PureOps.Ideal.Laws
import Idealize.ShloMosaic.Lib.IdealHost
import Idealize.ShloMosaic.Lib.Affine

noncomputable section

open scoped BigOperators

namespace Cert.RefLoss

open Cert.ReferenceIdeal Cert.ReferenceIdeal.Gen Cert.ReferenceIdeal.ReadP Idealize.ShloMosaic Idealize.ShloMosaic.ValueIdx

/-! ## Operations read at an index, for any contents -/

/-- A select on an equality test is the `if` on the equality. -/
theorem select_cmpi_eq {α : Type} {w : Nat} (u v : BitVec w) (a b : α) :
    Scalar.select (IntOp.cmpi .eq u v) a b = if u = v then a else b := by
  unfold Scalar.select
  by_cases h : u = v
  · rw [if_pos h]; exact if_pos (IntOp.cmpi_eq.mpr h)
  · rw [if_neg h]; exact if_neg (fun h' => h (IntOp.cmpi_eq.mp h'))

/-- The disjunction over the nine labels of a position: the or-fold, from the initial bit, of the nine bits at (b, j, ·). -/
theorem reduceOr9_apply (x : S64x32768x9.Idx → BitVec 1) (init : S_.Idx → BitVec 1)
    (h' : S64x32768x9.ReducesTo [2] S64x32768) (hu : 0 < S_.numel) (b : Fin 64) (j : Fin 32768) :
    Host.reduce IntOp.ori x init h' hu (ix2 b j)
      = (Finset.univ : Finset (Fin 9)).fold IntOp.ori (init ix0) (fun k => x (ix3 b j k)) := by
  have h : S64x32768x9.Reduces [2] S64x32768 := by decide
  refine (Host.reduce_eq_fold_single IntOp.ori x init h' h hu (ix2 b j)).trans ?_
  have e1 : init (Shape.Idx.first hu) = init ix0 := congrArg init (funext fun a => a.elim0)
  have e2 : (x ∘ h.lift (ix2 b j)) = fun k : Fin 9 => x (ix3 b j k) := by
    funext k
    show x (h.lift (ix2 b j) k) = x (ix3 b j k)
    congr 1
    funext a; refine Fin.ext ?_
    match a with
    | ⟨0, _⟩ => rfl
    | ⟨1, _⟩ => rfl
    | ⟨2, _⟩ => rfl
  rw [e1, e2]
  rfl

/-- A conjunction over an axis of extent one is the one bit there, and-ed with the initial bit. -/
theorem reduceAnd1_apply (x : S64x32768x1x1.Idx → BitVec 1) (init : S_.Idx → BitVec 1)
    (h' : S64x32768x1x1.ReducesTo [3] S64x32768x1) (hu : 0 < S_.numel) (b : Fin 64) (j : Fin 32768) :
    Host.reduce IntOp.andi x init h' hu (ix3 b j (0 : Fin 1))
      = IntOp.andi (x (ix4 b j (0 : Fin 1) (0 : Fin 1))) (init ix0) := by
  have h : S64x32768x1x1.Reduces [3] S64x32768x1 := by decide
  refine (Host.reduce_eq_fold_single IntOp.andi x init h' h hu (ix3 b j (0 : Fin 1))).trans ?_
  have e1 : init (Shape.Idx.first hu) = init ix0 := congrArg init (funext fun a => a.elim0)
  have e2 : (x ∘ h.lift (ix3 b j (0 : Fin 1))) = fun _ : Fin 1 => x (ix4 b j (0 : Fin 1) (0 : Fin 1)) := by
    funext k
    show x (h.lift (ix3 b j (0 : Fin 1)) k) = x (ix4 b j (0 : Fin 1) (0 : Fin 1))
    congr 1
    funext a; refine Fin.ext ?_
    have hk : k.val = 0 := by have hlt : k.val < 1 := k.isLt; omega
    match a with
    | ⟨0, _⟩ => rfl
    | ⟨1, _⟩ => rfl
    | ⟨2, _⟩ => rfl
    | ⟨3, _⟩ => exact hk
  rw [e1, e2]
  show (Finset.univ : Finset (Fin 1)).fold IntOp.andi (init ix0) (fun _ => x (ix4 b j (0 : Fin 1) (0 : Fin 1))) = _
  rw [Finset.univ_unique, Finset.fold_singleton]

/-- The gather along the class axis of a [64, 32768, 3] array, read at (b, j, 0): the batch coordinates b and j are
    kept, and the class coordinate is the start index found at (b, j, 0, 0), read as a signed number and clamped to the
    last class. -/
theorem gather3_apply {α : Type} {w : Nat} (x : S64x32768x3.Idx → α) (idx : IVec S64x32768x1x1 w) (b : Fin 64) (j : Fin 32768) :
    Host.gather gather_S64x32768x3_S64x32768x1x1_S64x32768x1_n_2_01_01_2_3_111 x idx (ix3 b j (0 : Fin 1))
      = x (ix3 b j (⟨min (idx (ix4 b j (0 : Fin 1) (0 : Fin 1))).toInt.toNat 2, by omega⟩ : Fin 3)) := by
  unfold Host.gather
  congr 1
  funext a
  refine Fin.ext ?_
  show (gather_S64x32768x3_S64x32768x1x1_S64x32768x1_n_2_01_01_2_3_111).start (ix3 b j (0 : Fin 1)) idx a
      + (gather_S64x32768x3_S64x32768x1x1_S64x32768x1_n_2_01_01_2_3_111).batchCoord (ix3 b j (0 : Fin 1)) a
      + (gather_S64x32768x3_S64x32768x1x1_S64x32768x1_n_2_01_01_2_3_111).offCoord (ix3 b j (0 : Fin 1)) a = _
  match a with
  | ⟨0, h0⟩ =>
    have hb : (⟨0, h0⟩ : Fin S64x32768x3.rank) ∈ (gather_S64x32768x3_S64x32768x1x1_S64x32768x1_n_2_01_01_2_3_111).operandBatchingDims := by decide +revert
    rw [GatherDims.start_batching _ _ idx _ hb,
      GatherDims.offCoord_eq_zero _ _ _ (fun h => ((GatherDims.mem_sKept _ _).mp h).2 hb)]
    unfold GatherDims.batchCoord
    rw [dif_pos hb]
    unfold GatherDims.siCoord
    simp (config := {decide := true}) [gather_S64x32768x3_S64x32768x1x1_S64x32768x1_n_2_01_01_2_3_111, GatherDims.batchDims, GatherDims.siKept, Shape.kept]
    refine (congrArg (fun q : Fin 3 => ((ix3 b j (0 : Fin 1) : S64x32768x1.Idx) q).val) (?_ : _ = (⟨0, by decide⟩ : Fin 3))).trans rfl
    decide +revert
  | ⟨1, h1⟩ =>
    have hb : (⟨1, h1⟩ : Fin S64x32768x3.rank) ∈ (gather_S64x32768x3_S64x32768x1x1_S64x32768x1_n_2_01_01_2_3_111).operandBatchingDims := by decide +revert
    rw [GatherDims.start_batching _ _ idx _ hb,
      GatherDims.offCoord_eq_zero _ _ _ (fun h => ((GatherDims.mem_sKept _ _).mp h).2 hb)]
    unfold GatherDims.batchCoord
    rw [dif_pos hb]
    unfold GatherDims.siCoord
    simp (config := {decide := true}) [gather_S64x32768x3_S64x32768x1x1_S64x32768x1_n_2_01_01_2_3_111, GatherDims.batchDims, GatherDims.siKept, Shape.kept]
    refine (congrArg (fun q : Fin 3 => ((ix3 b j (0 : Fin 1) : S64x32768x1.Idx) q).val) (?_ : _ = (⟨1, by decide⟩ : Fin 3))).trans rfl
    decide +revert
  | ⟨2, h2⟩ =>
    rw [GatherDims.batchCoord_eq_zero _ _ _ (by decide +revert),
      GatherDims.offCoord_eq_zero _ _ _ (fun h => ((GatherDims.mem_sKept _ _).mp h).1 (List.mem_singleton.mpr rfl))]
    simp only [Nat.add_zero]
    unfold GatherDims.start
    rw [dif_pos (show (⟨2, h2⟩ : Fin S64x32768x3.rank) ∈ (gather_S64x32768x3_S64x32768x1x1_S64x32768x1_n_2_01_01_2_3_111).startIndexMap from List.mem_singleton.mpr rfl)]
    have hsi : (gather_S64x32768x3_S64x32768x1x1_S64x32768x1_n_2_01_01_2_3_111).siIdx (ix3 b j (0 : Fin 1))
        ⟨List.idxOf (⟨2, h2⟩ : Fin S64x32768x3.rank) (gather_S64x32768x3_S64x32768x1x1_S64x32768x1_n_2_01_01_2_3_111).startIndexMap,
          List.idxOf_lt_length_iff.2 (List.mem_singleton.mpr rfl)⟩ = ix4 b j (0 : Fin 1) (0 : Fin 1) := by
      funext c; refine Fin.ext ?_
      match c with
      | ⟨0, _⟩ => rfl
      | ⟨1, _⟩ => rfl
      | ⟨2, _⟩ => rfl
      | ⟨3, _⟩ => rfl
    rw [hsi]
    rfl

/-- The gather along the class axis of a [64, 32768, 4] array, read at (b, j, 0): the batch coordinates b and j are
    kept, and the class coordinate is the start index found at (b, j, 0, 0), read as a signed number and clamped to the
    last class. -/
theorem gather4_apply {α : Type} {w : Nat} (x : S64x32768x4.Idx → α) (idx : IVec S64x32768x1x1 w) (b : Fin 64) (j : Fin 32768) :
    Host.gather gather_S64x32768x4_S64x32768x1x1_S64x32768x1_n_2_01_01_2_3_111 x idx (ix3 b j (0 : Fin 1))
      = x (ix3 b j (⟨min (idx (ix4 b j (0 : Fin 1) (0 : Fin 1))).toInt.toNat 3, by omega⟩ : Fin 4)) := by
  unfold Host.gather
  congr 1
  funext a
  refine Fin.ext ?_
  show (gather_S64x32768x4_S64x32768x1x1_S64x32768x1_n_2_01_01_2_3_111).start (ix3 b j (0 : Fin 1)) idx a
      + (gather_S64x32768x4_S64x32768x1x1_S64x32768x1_n_2_01_01_2_3_111).batchCoord (ix3 b j (0 : Fin 1)) a
      + (gather_S64x32768x4_S64x32768x1x1_S64x32768x1_n_2_01_01_2_3_111).offCoord (ix3 b j (0 : Fin 1)) a = _
  match a with
  | ⟨0, h0⟩ =>
    have hb : (⟨0, h0⟩ : Fin S64x32768x4.rank) ∈ (gather_S64x32768x4_S64x32768x1x1_S64x32768x1_n_2_01_01_2_3_111).operandBatchingDims := by decide +revert
    rw [GatherDims.start_batching _ _ idx _ hb,
      GatherDims.offCoord_eq_zero _ _ _ (fun h => ((GatherDims.mem_sKept _ _).mp h).2 hb)]
    unfold GatherDims.batchCoord
    rw [dif_pos hb]
    unfold GatherDims.siCoord
    simp (config := {decide := true}) [gather_S64x32768x4_S64x32768x1x1_S64x32768x1_n_2_01_01_2_3_111, GatherDims.batchDims, GatherDims.siKept, Shape.kept]
    refine (congrArg (fun q : Fin 3 => ((ix3 b j (0 : Fin 1) : S64x32768x1.Idx) q).val) (?_ : _ = (⟨0, by decide⟩ : Fin 3))).trans rfl
    decide +revert
  | ⟨1, h1⟩ =>
    have hb : (⟨1, h1⟩ : Fin S64x32768x4.rank) ∈ (gather_S64x32768x4_S64x32768x1x1_S64x32768x1_n_2_01_01_2_3_111).operandBatchingDims := by decide +revert
    rw [GatherDims.start_batching _ _ idx _ hb,
      GatherDims.offCoord_eq_zero _ _ _ (fun h => ((GatherDims.mem_sKept _ _).mp h).2 hb)]
    unfold GatherDims.batchCoord
    rw [dif_pos hb]
    unfold GatherDims.siCoord
    simp (config := {decide := true}) [gather_S64x32768x4_S64x32768x1x1_S64x32768x1_n_2_01_01_2_3_111, GatherDims.batchDims, GatherDims.siKept, Shape.kept]
    refine (congrArg (fun q : Fin 3 => ((ix3 b j (0 : Fin 1) : S64x32768x1.Idx) q).val) (?_ : _ = (⟨1, by decide⟩ : Fin 3))).trans rfl
    decide +revert
  | ⟨2, h2⟩ =>
    rw [GatherDims.batchCoord_eq_zero _ _ _ (by decide +revert),
      GatherDims.offCoord_eq_zero _ _ _ (fun h => ((GatherDims.mem_sKept _ _).mp h).1 (List.mem_singleton.mpr rfl))]
    simp only [Nat.add_zero]
    unfold GatherDims.start
    rw [dif_pos (show (⟨2, h2⟩ : Fin S64x32768x4.rank) ∈ (gather_S64x32768x4_S64x32768x1x1_S64x32768x1_n_2_01_01_2_3_111).startIndexMap from List.mem_singleton.mpr rfl)]
    have hsi : (gather_S64x32768x4_S64x32768x1x1_S64x32768x1_n_2_01_01_2_3_111).siIdx (ix3 b j (0 : Fin 1))
        ⟨List.idxOf (⟨2, h2⟩ : Fin S64x32768x4.rank) (gather_S64x32768x4_S64x32768x1x1_S64x32768x1_n_2_01_01_2_3_111).startIndexMap,
          List.idxOf_lt_length_iff.2 (List.mem_singleton.mpr rfl)⟩ = ix4 b j (0 : Fin 1) (0 : Fin 1) := by
      funext c; refine Fin.ext ?_
      match c with
      | ⟨0, _⟩ => rfl
      | ⟨1, _⟩ => rfl
      | ⟨2, _⟩ => rfl
      | ⟨3, _⟩ => rfl
    rw [hsi]
    rfl

/-- A scalar viewed as a one-element vector holds the scalar. -/
theorem reshape_scalar {α : Type} (v : S_.Idx → α) (h : S_.ShapeCasts S1) (i : S1.Idx) : shapeCast S1 v h i = v ix0 := by
  unfold shapeCast
  exact congrArg v (funext fun a => a.elim0)

/-! ## Indices

Every per-position array is read at the index (b, j). A [64, 32768, 1] column reshaped to [64, 32768] is read at the
position with the same row-major number, which is (b, j, 0); a label slice [·, ·, k : k + 1] is read at (b, j, k). -/

/-- The index of a [64, 32768, 1] array whose row-major number is that of (b, j) is (b, j, 0). -/
theorem col_of (b : Fin 64) (j : Fin 32768) (i : S64x32768x1.Idx) (n : Nat) (hn : n = b.val * 32768 + j.val)
    (h0 : (i 0).val = n / 32768) (h1 : (i 1).val = n / 1 % 32768) (h2 : (i 2).val = 0) : i = ix3 b j (0 : Fin 1) := by
  have hb := b.isLt
  have hj := j.isLt
  funext a; refine Fin.ext ?_
  match a with
  | ⟨0, _⟩ => show (i 0).val = b.val; omega
  | ⟨1, _⟩ => show (i 1).val = j.val; omega
  | ⟨2, _⟩ => exact h2

/-- The index of the label array whose first two coordinates are those of (b, j) and whose third is k is (b, j, k). -/
theorem lbl_of (b : Fin 64) (j : Fin 32768) (k : Fin 9) (i : S64x32768x9.Idx) (h0 : (i 0).val = (b.val * 32768 + j.val) / 32768)
    (h1 : (i 1).val = (b.val * 32768 + j.val) / 1 % 32768) (h2 : (i 2).val = k.val) : i = ix3 b j k := by
  have hb := b.isLt
  have hj := j.isLt
  funext a; refine Fin.ext ?_
  match a with
  | ⟨0, _⟩ => show (i 0).val = b.val; omega
  | ⟨1, _⟩ => show (i 1).val = j.val; omega
  | ⟨2, _⟩ => exact h2

variable (x0 x1 x2 : (⟨S64x32768x1, .f32⟩ : BufTy).Contents (Elt Ideal))
  (x3 : (⟨S64x32768x3, .f32⟩ : BufTy).Contents (Elt Ideal))
  (x4 : (⟨S64x32768x4, .f32⟩ : BufTy).Contents (Elt Ideal))
  (x5 : (⟨S64x32768x9, .i32⟩ : BufTy).Contents (Elt Ideal))
  (b : Fin 64) (j : Fin 32768)

/-! ## The label tests -/

/-- The test "label 0 of position (b, j) equals one". -/
theorem test0_at : val_main_v7 (F := Ideal) x5 (ix2 b j) = IntOp.cmpi .eq (x5 (ix3 b j (0 : Fin 9))) 1#32 := by
  rewrite [val_main_v7_apply, val_main_v5_apply, val_main_v4_apply, val_main_v6_apply, val_main_c_1_apply,
    lbl_of b j (0 : Fin 9) (idx_main_v4 (idx_main_v5 (ix2 b j))) rfl rfl rfl]
  rfl

/-- The test "label 7 of position (b, j) equals one". -/
theorem test7_at : val_main_v12 (F := Ideal) x5 (ix2 b j) = IntOp.cmpi .eq (x5 (ix3 b j (7 : Fin 9))) 1#32 := by
  rewrite [val_main_v12_apply, val_main_v10_apply, val_main_v9_apply, val_main_v11_apply, val_main_c_3_apply,
    lbl_of b j (7 : Fin 9) (idx_main_v9 (idx_main_v10 (ix2 b j))) rfl rfl rfl]
  rfl

/-- The test "label 4 of position (b, j) equals one". -/
theorem test4_at : val_main_v17 (F := Ideal) x5 (ix2 b j) = IntOp.cmpi .eq (x5 (ix3 b j (4 : Fin 9))) 1#32 := by
  rewrite [val_main_v17_apply, val_main_v15_apply, val_main_v14_apply, val_main_v16_apply, val_main_c_6_apply,
    lbl_of b j (4 : Fin 9) (idx_main_v14 (idx_main_v15 (ix2 b j))) rfl rfl rfl]
  rfl

/-- The test "label 5 of position (b, j) equals one". -/
theorem test5_at : val_main_v21 (F := Ideal) x5 (ix2 b j) = IntOp.cmpi .eq (x5 (ix3 b j (5 : Fin 9))) 1#32 := by
  rewrite [val_main_v21_apply, val_main_v19_apply, val_main_v18_apply, val_main_v20_apply, val_main_c_7_apply,
    lbl_of b j (5 : Fin 9) (idx_main_v18 (idx_main_v19 (ix2 b j))) rfl rfl rfl]
  rfl

/-- The test "label 2 of position (b, j) equals one". -/
theorem test2_at : val_main_v27 (F := Ideal) x5 (ix2 b j) = IntOp.cmpi .eq (x5 (ix3 b j (2 : Fin 9))) 1#32 := by
  rewrite [val_main_v27_apply, val_main_v25_apply, val_main_v24_apply, val_main_v26_apply, val_main_c_11_apply,
    lbl_of b j (2 : Fin 9) (idx_main_v24 (idx_main_v25 (ix2 b j))) rfl rfl rfl]
  rfl

/-- The test "label 3 of position (b, j) equals one". -/
theorem test3_at : val_main_v31 (F := Ideal) x5 (ix2 b j) = IntOp.cmpi .eq (x5 (ix3 b j (3 : Fin 9))) 1#32 := by
  rewrite [val_main_v31_apply, val_main_v29_apply, val_main_v28_apply, val_main_v30_apply, val_main_c_12_apply,
    lbl_of b j (3 : Fin 9) (idx_main_v28 (idx_main_v29 (ix2 b j))) rfl rfl rfl]
  rfl

/-- The test "label 6 of position (b, j) equals one". -/
theorem test6_at : val_main_v35 (F := Ideal) x5 (ix2 b j) = IntOp.cmpi .eq (x5 (ix3 b j (6 : Fin 9))) 1#32 := by
  rewrite [val_main_v35_apply, val_main_v33_apply, val_main_v32_apply, val_main_v34_apply, val_main_c_13_apply,
    lbl_of b j (6 : Fin 9) (idx_main_v32 (idx_main_v33 (ix2 b j))) rfl rfl rfl]
  rfl

/-! ## The indicators and the class numbers chosen by the labels -/

/-- The player indicator: zero when label 0 is set, one otherwise. -/
theorem player_at : val_main_v8 (F := Ideal) x5 (ix2 b j)
    = if x5 (ix3 b j (0 : Fin 9)) = 1#32 then Cert.LossSpec.zero else Cert.LossSpec.one := by
  rewrite [val_main_v8_apply, test0_at, val_main_call0_v0_apply, val_main_cst_apply, val_main_call0_v1_apply,
    val_main_cst_2_apply, select_cmpi_eq]
  rfl

/-- The hand indicator: zero when label 7 is set, one otherwise. -/
theorem hand_at : val_main_v13 (F := Ideal) x5 (ix2 b j)
    = if x5 (ix3 b j (7 : Fin 9)) = 1#32 then Cert.LossSpec.zero else Cert.LossSpec.one := by
  rewrite [val_main_v13_apply, test7_at, val_main_call1_v0_apply, val_main_cst_4_apply, val_main_call1_v1_apply,
    val_main_cst_5_apply, select_cmpi_eq]
  rfl

/-- The point class: 0 when label 4 is set, else 1 when label 5 is set, else 2. -/
theorem pointWord_at : val_main_v23 (F := Ideal) x5 (ix2 b j)
    = if x5 (ix3 b j (4 : Fin 9)) = 1#32 then 0#32 else if x5 (ix3 b j (5 : Fin 9)) = 1#32 then 1#32 else 2#32 := by
  rewrite [val_main_v23_apply, val_main_v22_apply, test4_at, test5_at, val_main_call3_v0_apply, val_main_c_10_apply,
    val_main_call2_v0_apply, val_main_c_8_apply, val_main_call2_v1_apply, val_main_c_9_apply, select_cmpi_eq, select_cmpi_eq]
  rfl

/-- The serve class: 0 when label 2 is set, else 1 when label 3 is set, else 2 when label 6 is set, else 3. -/
theorem serveWord_at : val_main_v38 (F := Ideal) x5 (ix2 b j)
    = if x5 (ix3 b j (2 : Fin 9)) = 1#32 then 0#32 else if x5 (ix3 b j (3 : Fin 9)) = 1#32 then 1#32
      else if x5 (ix3 b j (6 : Fin 9)) = 1#32 then 2#32 else 3#32 := by
  rewrite [val_main_v38_apply, val_main_v37_apply, val_main_v36_apply, test2_at, test3_at, test6_at,
    val_main_call6_v0_apply, val_main_c_17_apply, val_main_call5_v0_apply, val_main_c_16_apply,
    val_main_call4_v0_apply, val_main_c_14_apply, val_main_call4_v1_apply, val_main_c_15_apply,
    select_cmpi_eq, select_cmpi_eq, select_cmpi_eq]
  rfl

/-! ## The stroke indicator -/

/-- The stroke indicator of position (b, j) is the specification's "some label is one", read as a number. -/
theorem stroke_at : val_main_v3 (F := Ideal) x5 (ix2 b j) = Cert.LossSpec.strokeAny (fun k => x5 (ix3 b j k)) := by
  rewrite [val_main_v3_apply]
  unfold val_main_v2
  rewrite [reduceOr9_apply]
  simp only [val_main_v1_apply, val_main_v0_apply, val_main_c_apply, val_main_c_0_apply]
  rfl

/-! ## The three binary cross-entropies

Each is minus (weight · indicator · log p + weight · (one − indicator) · log (one − p)), with p the probability of the
position read off its [64, 32768, 1] column. -/

/-- The stroke term, with the two class weights. -/
theorem bceStroke_at : val_main_v53 (F := Ideal) x0 x5 (ix2 b j)
    = -(Cert.LossSpec.wPos * val_main_v3 (F := Ideal) x5 (ix2 b j) * Ideal.log (x0 (ix3 b j (0 : Fin 1)))
      + Cert.LossSpec.wNeg * (Cert.LossSpec.one - val_main_v3 (F := Ideal) x5 (ix2 b j))
        * Ideal.log (Cert.LossSpec.one - x0 (ix3 b j (0 : Fin 1)))) := by
  rewrite [val_main_v53_apply, val_main_v52_apply, val_main_v43_apply, val_main_v41_apply, val_main_v40_apply, val_main_cst_18_apply,
    val_main_v42_apply, val_main_v51_apply, val_main_v47_apply, val_main_v46_apply, val_main_cst_20_apply, val_main_v45_apply,
    val_main_v44_apply, val_main_cst_19_apply, val_main_v50_apply, val_main_v49_apply, val_main_v48_apply, val_main_cst_21_apply,
    val_main_v39_apply, col_of b j (idx_main_v39 (ix2 b j)) _ rfl rfl rfl rfl]
  rfl

/-- The player term, both weights the word of one. -/
theorem bcePlayer_at : val_main_v70 (F := Ideal) x1 x5 (ix2 b j)
    = -(Cert.LossSpec.one * val_main_v8 (F := Ideal) x5 (ix2 b j) * Ideal.log (x1 (ix3 b j (0 : Fin 1)))
      + Cert.LossSpec.one * (Cert.LossSpec.one - val_main_v8 (F := Ideal) x5 (ix2 b j))
        * Ideal.log (Cert.LossSpec.one - x1 (ix3 b j (0 : Fin 1)))) := by
  rewrite [val_main_v70_apply, val_main_v69_apply, val_main_v59_apply, val_main_v58_apply, val_main_v56_apply, val_main_v55_apply, val_main_cst_22_apply, val_main_v57_apply, val_main_v68_apply, val_main_v67_apply, val_main_v63_apply, val_main_v62_apply, val_main_cst_24_apply, val_main_v61_apply, val_main_v60_apply, val_main_cst_23_apply, val_main_v66_apply, val_main_v65_apply, val_main_v64_apply, val_main_cst_25_apply, val_main_v54_apply,
    col_of b j (idx_main_v54 (ix2 b j)) _ rfl rfl rfl rfl]
  rfl

/-- The hand term, both weights the word of one. -/
theorem bceHand_at : val_main_v87 (F := Ideal) x2 x5 (ix2 b j)
    = -(Cert.LossSpec.one * val_main_v13 (F := Ideal) x5 (ix2 b j) * Ideal.log (x2 (ix3 b j (0 : Fin 1)))
      + Cert.LossSpec.one * (Cert.LossSpec.one - val_main_v13 (F := Ideal) x5 (ix2 b j))
        * Ideal.log (Cert.LossSpec.one - x2 (ix3 b j (0 : Fin 1)))) := by
  rewrite [val_main_v87_apply, val_main_v86_apply, val_main_v76_apply, val_main_v75_apply, val_main_v73_apply, val_main_v72_apply, val_main_cst_26_apply, val_main_v74_apply, val_main_v85_apply, val_main_v84_apply, val_main_v80_apply, val_main_v79_apply, val_main_cst_28_apply, val_main_v78_apply, val_main_v77_apply, val_main_cst_27_apply, val_main_v83_apply, val_main_v82_apply, val_main_v81_apply, val_main_cst_29_apply, val_main_v71_apply,
    col_of b j (idx_main_v71 (ix2 b j)) _ rfl rfl rfl rfl]
  rfl

/-! ## The two class probabilities picked by the labels -/

/-- The position (b, j) of a [64, 32768] array from its two coordinates. -/
theorem pos_of (b : Fin 64) (j : Fin 32768) (i : S64x32768.Idx) (h0 : (i 0).val = b.val) (h1 : (i 1).val = j.val) : i = ix2 b j := by
  funext a; refine Fin.ext ?_
  match a with
  | ⟨0, _⟩ => exact h0
  | ⟨1, _⟩ => exact h1

/-- A class number below 3 is not negative, so the wrap-around of negative numbers leaves it alone … -/
theorem wrap3 (w : BitVec 32) (hw : w = 0#32 ∨ w = 1#32 ∨ w = 2#32) :
    Scalar.select (IntOp.cmpi .slt w 0#32) (IntOp.addi w 3#32) w = w := by
  rcases hw with rfl | rfl | rfl <;> decide

/-- … and it passes the range test 0 ≤ w ≤ 2. -/
theorem inRange3 (w : BitVec 32) (hw : w = 0#32 ∨ w = 1#32 ∨ w = 2#32) :
    IntOp.andi (IntOp.andi (IntOp.cmpi .sge w 0#32) (IntOp.cmpi .sle w 2#32)) 1#1 = 1#1 := by
  rcases hw with rfl | rfl | rfl <;> decide

/-- The start index the gather finds at (b, j, 0, 0): the class number of (b, j) after the wrap-around. -/
theorem takeWord3_at : val_main_call7_v6 (F := Ideal) x5 (ix4 b j (0 : Fin 1) (0 : Fin 1))
    = Scalar.select (IntOp.cmpi .slt (val_main_v23 (F := Ideal) x5 (ix2 b j)) 0#32)
        (IntOp.addi (val_main_v23 (F := Ideal) x5 (ix2 b j)) 3#32) (val_main_v23 (F := Ideal) x5 (ix2 b j)) := by
  rewrite [val_main_call7_v6_apply,
    col_of b j (idx_main_call7_v6 (ix4 b j (0 : Fin 1) (0 : Fin 1))) (((b.val * 32768 + j.val) * 1 + 0) * 1 + 0) (by omega) rfl rfl rfl,
    val_main_call7_v5_apply, val_main_call7_v2_apply, val_main_call7_v4_apply, val_main_call7_v0_apply, val_main_v88_apply,
    val_main_call7_v1_apply, val_main_call7_c_apply, val_main_call7_v3_apply, val_main_call7_c_0_apply,
    pos_of b j (idx_main_v88 (ix3 b j (0 : Fin 1))) rfl rfl]
  rfl

/-- The probability the gather picks at (b, j) when the class number there is w, below 3: the range test passes, so the
    select takes the gathered element, which is the probability of class w. -/
theorem pick3_at (w : BitVec 32) (hw : w = 0#32 ∨ w = 1#32 ∨ w = 2#32) (hv : val_main_v23 (F := Ideal) x5 (ix2 b j) = w) :
    val_main_v90 (F := Ideal) x3 x5 (ix2 b j)
      = x3 (ix3 b j (⟨min w.toInt.toNat 2, Nat.lt_succ_of_le (Nat.min_le_right _ _)⟩ : Fin 3)) := by
  have hW : val_main_call7_v6 (F := Ideal) x5 (ix4 b j (0 : Fin 1) (0 : Fin 1)) = w := by
    rw [takeWord3_at, hv]; exact wrap3 w hw
  have hc : val_main_call7_v13 (F := Ideal) x5 (ix3 b j (0 : Fin 1)) = 1#1 := by
    unfold val_main_call7_v13
    rewrite [reduceAnd1_apply, val_main_call7_v12_apply, val_main_call7_v8_apply, val_main_call7_v11_apply, hW,
      val_main_call7_v7_apply, val_main_call7_c_2_apply, val_main_call7_v10_apply, val_main_call7_v9_apply,
      val_main_call7_c_1_apply, val_main_call7_c_3_apply]
    exact inRange3 w hw
  have hg : val_main_call7_v14 (F := Ideal) x3 x5 (ix3 b j (0 : Fin 1))
      = x3 (ix3 b j (⟨min w.toInt.toNat 2, Nat.lt_succ_of_le (Nat.min_le_right _ _)⟩ : Fin 3)) := by
    unfold val_main_call7_v14
    refine (gather3_apply x3 _ b j).trans (congrArg (fun q : Fin 3 => x3 (ix3 b j q)) (Fin.ext ?_))
    exact congrArg (fun v : BitVec 32 => min v.toInt.toNat 2) hW
  rewrite [val_main_v90_apply, col_of b j (idx_main_v90 (ix2 b j)) _ rfl rfl rfl rfl, val_main_v89_apply, hc, hg]
  rfl

/-- A class number below 4 is not negative, so the wrap-around of negative numbers leaves it alone … -/
theorem wrap4 (w : BitVec 32) (hw : w = 0#32 ∨ w = 1#32 ∨ w = 2#32 ∨ w = 3#32) :
    Scalar.select (IntOp.cmpi .slt w 0#32) (IntOp.addi w 4#32) w = w := by
  rcases hw with rfl | rfl | rfl | rfl <;> decide

/-- … and it passes the range test 0 ≤ w ≤ 3. -/
theorem inRange4 (w : BitVec 32) (hw : w = 0#32 ∨ w = 1#32 ∨ w = 2#32 ∨ w = 3#32) :
    IntOp.andi (IntOp.andi (IntOp.cmpi .sge w 0#32) (IntOp.cmpi .sle w 3#32)) 1#1 = 1#1 := by
  rcases hw with rfl | rfl | rfl | rfl <;> decide

/-- The start index the gather finds at (b, j, 0, 0): the class number of (b, j) after the wrap-around. -/
theorem takeWord4_at : val_main_call8_v6 (F := Ideal) x5 (ix4 b j (0 : Fin 1) (0 : Fin 1))
    = Scalar.select (IntOp.cmpi .slt (val_main_v38 (F := Ideal) x5 (ix2 b j)) 0#32)
        (IntOp.addi (val_main_v38 (F := Ideal) x5 (ix2 b j)) 4#32) (val_main_v38 (F := Ideal) x5 (ix2 b j)) := by
  rewrite [val_main_call8_v6_apply,
    col_of b j (idx_main_call8_v6 (ix4 b j (0 : Fin 1) (0 : Fin 1))) (((b.val * 32768 + j.val) * 1 + 0) * 1 + 0) (by omega) rfl rfl rfl,
    val_main_call8_v5_apply, val_main_call8_v2_apply, val_main_call8_v4_apply, val_main_call8_v0_apply, val_main_v93_apply,
    val_main_call8_v1_apply, val_main_call8_c_apply, val_main_call8_v3_apply, val_main_call8_c_0_apply,
    pos_of b j (idx_main_v93 (ix3 b j (0 : Fin 1))) rfl rfl]
  rfl

/-- The probability the gather picks at (b, j) when the class number there is w, below 4: the range test passes, so the
    select takes the gathered element, which is the probability of class w. -/
theorem pick4_at (w : BitVec 32) (hw : w = 0#32 ∨ w = 1#32 ∨ w = 2#32 ∨ w = 3#32) (hv : val_main_v38 (F := Ideal) x5 (ix2 b j) = w) :
    val_main_v95 (F := Ideal) x4 x5 (ix2 b j)
      = x4 (ix3 b j (⟨min w.toInt.toNat 3, Nat.lt_succ_of_le (Nat.min_le_right _ _)⟩ : Fin 4)) := by
  have hW : val_main_call8_v6 (F := Ideal) x5 (ix4 b j (0 : Fin 1) (0 : Fin 1)) = w := by
    rw [takeWord4_at, hv]; exact wrap4 w hw
  have hc : val_main_call8_v13 (F := Ideal) x5 (ix3 b j (0 : Fin 1)) = 1#1 := by
    unfold val_main_call8_v13
    rewrite [reduceAnd1_apply, val_main_call8_v12_apply, val_main_call8_v8_apply, val_main_call8_v11_apply, hW,
      val_main_call8_v7_apply, val_main_call8_c_2_apply, val_main_call8_v10_apply, val_main_call8_v9_apply,
      val_main_call8_c_1_apply, val_main_call8_c_3_apply]
    exact inRange4 w hw
  have hg : val_main_call8_v14 (F := Ideal) x4 x5 (ix3 b j (0 : Fin 1))
      = x4 (ix3 b j (⟨min w.toInt.toNat 3, Nat.lt_succ_of_le (Nat.min_le_right _ _)⟩ : Fin 4)) := by
    unfold val_main_call8_v14
    refine (gather4_apply x4 _ b j).trans (congrArg (fun q : Fin 4 => x4 (ix3 b j q)) (Fin.ext ?_))
    exact congrArg (fun v : BitVec 32 => min v.toInt.toNat 3) hW
  rewrite [val_main_v95_apply, col_of b j (idx_main_v95 (ix2 b j)) _ rfl rfl rfl rfl, val_main_v94_apply, hc, hg]
  rfl

/-- The point probability of position (b, j): of class 0 when label 4 is set, else of class 1 when label 5 is set, else of class 2. -/
theorem point_at : val_main_v90 (F := Ideal) x3 x5 (ix2 b j)
    = if x5 (ix3 b j (4 : Fin 9)) = 1#32 then x3 (ix3 b j (0 : Fin 3))
      else if x5 (ix3 b j (5 : Fin 9)) = 1#32 then x3 (ix3 b j (1 : Fin 3)) else x3 (ix3 b j (2 : Fin 3)) := by
  have hv := pointWord_at x5 b j
  by_cases h4 : x5 (ix3 b j (4 : Fin 9)) = 1#32
  · rw [if_pos h4] at hv ⊢
    exact (pick3_at x3 x5 b j 0#32 (Or.inl rfl) hv).trans (congrArg (fun q : Fin 3 => x3 (ix3 b j q)) (by decide))
  · rw [if_neg h4] at hv ⊢
    by_cases h5 : x5 (ix3 b j (5 : Fin 9)) = 1#32
    · rw [if_pos h5] at hv ⊢
      exact (pick3_at x3 x5 b j 1#32 (Or.inr (Or.inl rfl)) hv).trans (congrArg (fun q : Fin 3 => x3 (ix3 b j q)) (by decide))
    · rw [if_neg h5] at hv ⊢
      exact (pick3_at x3 x5 b j 2#32 (Or.inr (Or.inr rfl)) hv).trans (congrArg (fun q : Fin 3 => x3 (ix3 b j q)) (by decide))

/-- The serve probability of position (b, j): of class 0, 1, 2 when label 2, 3, 6 is the first one set, else of class 3. -/
theorem serve_at : val_main_v95 (F := Ideal) x4 x5 (ix2 b j)
    = if x5 (ix3 b j (2 : Fin 9)) = 1#32 then x4 (ix3 b j (0 : Fin 4))
      else if x5 (ix3 b j (3 : Fin 9)) = 1#32 then x4 (ix3 b j (1 : Fin 4))
      else if x5 (ix3 b j (6 : Fin 9)) = 1#32 then x4 (ix3 b j (2 : Fin 4)) else x4 (ix3 b j (3 : Fin 4)) := by
  have hv := serveWord_at x5 b j
  by_cases h2 : x5 (ix3 b j (2 : Fin 9)) = 1#32
  · rw [if_pos h2] at hv ⊢
    exact (pick4_at x4 x5 b j 0#32 (Or.inl rfl) hv).trans (congrArg (fun q : Fin 4 => x4 (ix3 b j q)) (by decide))
  · rw [if_neg h2] at hv ⊢
    by_cases h3 : x5 (ix3 b j (3 : Fin 9)) = 1#32
    · rw [if_pos h3] at hv ⊢
      exact (pick4_at x4 x5 b j 1#32 (Or.inr (Or.inl rfl)) hv).trans (congrArg (fun q : Fin 4 => x4 (ix3 b j q)) (by decide))
    · rw [if_neg h3] at hv ⊢
      by_cases h6 : x5 (ix3 b j (6 : Fin 9)) = 1#32
      · rw [if_pos h6] at hv ⊢
        exact (pick4_at x4 x5 b j 2#32 (Or.inr (Or.inr (Or.inl rfl))) hv).trans (congrArg (fun q : Fin 4 => x4 (ix3 b j q)) (by decide))
      · rw [if_neg h6] at hv ⊢
        exact (pick4_at x4 x5 b j 3#32 (Or.inr (Or.inr (Or.inr rfl))) hv).trans (congrArg (fun q : Fin 4 => x4 (ix3 b j q)) (by decide))

/-! ## One position, and the mean -/

/-- The loss the reference computes at position (b, j) is the specification's, with the stroke indicator "some label is
    one". A negation is zero minus its operand, and a product with the word of one is the other factor. -/
theorem cell_at : val_main_v102 (F := Ideal) x0 x1 x2 x3 x4 x5 (ix2 b j)
    = Cert.LossSpec.cell (Cert.LossSpec.strokeAny (fun k => x5 (ix3 b j k))) (fun k => x5 (ix3 b j k))
        (x0 (ix3 b j 0)) (x1 (ix3 b j 0)) (x2 (ix3 b j 0)) (fun k => x3 (ix3 b j k)) (fun k => x4 (ix3 b j k)) := by
  rewrite [val_main_v102_apply, val_main_v101_apply, val_main_v100_apply, val_main_v99_apply, val_main_v98_apply,
    bceStroke_at, bcePlayer_at, bceHand_at, val_main_v92_apply, val_main_v91_apply, point_at,
    val_main_v97_apply, val_main_v96_apply, serve_at, player_at, hand_at, stroke_at]
  simp only [Cert.LossSpec.cell, Cert.LossSpec.one, Cert.LossSpec.zero, Ideal.addf_def, Ideal.mulf_def, Ideal.hostNegf_def,
    Ideal.negf_def, Ideal.hostUnary_log_def, Ideal.ofBits_one_f32, Ideal.ofBits_zero_f32, one_mul, zero_sub]

/-- The reference's result: the mean, over all positions, of the specification's loss with the stroke indicator "some
    label is one" — the sum from the zero word over the word of 2^21, viewed as a one-element vector. -/
theorem ref_value : val_main_v105 (F := Ideal) x0 x1 x2 x3 x4 x5
    = fun _ => Cert.LossSpec.mean (fun b j =>
        Cert.LossSpec.cell (Cert.LossSpec.strokeAny (fun k => x5 (ix3 b j k))) (fun k => x5 (ix3 b j k))
          (x0 (ix3 b j 0)) (x1 (ix3 b j 0)) (x2 (ix3 b j 0)) (fun k => x3 (ix3 b j k)) (fun k => x4 (ix3 b j k))) := by
  funext i
  unfold val_main_v105
  rewrite [reshape_scalar, val_main_v104_apply, val_main_v103_apply, val_main_cst_31_apply, val_main_cst_30_apply, sum_idx2]
  simp only [cell_at]
  rfl

end Cert.RefLoss

end
-- ==== Proof.RefFold.lean ====
/-
  The reference program's result buffer holds the last stage of its one-operation-at-a-time reading.

  The run leaves in the result buffer the fold of the program's 195 operations over the launch contents, read at that
  buffer. One rewriting pass computes that fold as the operations' composed term of the six argument arrays. The stages
  val_main_c, ..., val_main_v105 compose the same operations in the same order, so unfolding them gives the same term,
  once the argument arrays are spelled the same way on both sides and the identity transports that the calls' typed
  buffers leave behind are removed.
-/
import proofs.«134005_j8323646620405_1_alg».proof.Proof.RefRun
import proofs.«134005_j8323646620405_1_alg».proof.Proof.RefRead

noncomputable section

namespace Cert.RefLoss

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 40000000 in
/-- The fold of the reference's operations, read at the result buffer, is the last stage applied to the arguments. -/
theorem fold_eq_stage (m : (ℓ : Loc nD τ sig) → Buf (Elt F) ℓ) (c : Dev nD) :
    after (Cert.ReferenceIdeal.ValueP.ops (F := F)) (launchContents m c) (Proc.devRef .tc main_v105)
      = Cert.ReferenceIdeal.ReadP.val_main_v105 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have e0 : launchContents m c (Proc.devRef .tc main_arg0) = m ((c.tc : Thread nD τ).loc main_arg0) := rfl
  have e1 : launchContents m c (Proc.devRef .tc main_arg1) = m ((c.tc : Thread nD τ).loc main_arg1) := rfl
  have e2 : launchContents m c (Proc.devRef .tc main_arg2) = m ((c.tc : Thread nD τ).loc main_arg2) := rfl
  have e3 : launchContents m c (Proc.devRef .tc main_arg3) = m ((c.tc : Thread nD τ).loc main_arg3) := rfl
  have e4 : launchContents m c (Proc.devRef .tc main_arg4) = m ((c.tc : Thread nD τ).loc main_arg4) := rfl
  have e5 : launchContents m c (Proc.devRef .tc main_arg5) = m ((c.tc : Thread nD τ).loc main_arg5) := rfl
  after_results_simp
  simp only [e0, e1, e2, e3, e4, e5, TRef.toBuf, TRef.ofBuf, cast_eq, Cert.ReferenceIdeal.ReadP.val_main_c, Cert.ReferenceIdeal.ReadP.val_main_v0, Cert.ReferenceIdeal.ReadP.val_main_v1, Cert.ReferenceIdeal.ReadP.val_main_c_0, Cert.ReferenceIdeal.ReadP.val_main_v2, Cert.ReferenceIdeal.ReadP.val_main_v3, Cert.ReferenceIdeal.ReadP.val_main_v4, Cert.ReferenceIdeal.ReadP.val_main_v5, Cert.ReferenceIdeal.ReadP.val_main_c_1, Cert.ReferenceIdeal.ReadP.val_main_v6, Cert.ReferenceIdeal.ReadP.val_main_v7, Cert.ReferenceIdeal.ReadP.val_main_cst, Cert.ReferenceIdeal.ReadP.val_main_cst_2, Cert.ReferenceIdeal.ReadP.val_main_call0_v0, Cert.ReferenceIdeal.ReadP.val_main_call0_v1, Cert.ReferenceIdeal.ReadP.val_main_v8, Cert.ReferenceIdeal.ReadP.val_main_v9, Cert.ReferenceIdeal.ReadP.val_main_v10, Cert.ReferenceIdeal.ReadP.val_main_c_3, Cert.ReferenceIdeal.ReadP.val_main_v11, Cert.ReferenceIdeal.ReadP.val_main_v12, Cert.ReferenceIdeal.ReadP.val_main_cst_4, Cert.ReferenceIdeal.ReadP.val_main_cst_5, Cert.ReferenceIdeal.ReadP.val_main_call1_v0, Cert.ReferenceIdeal.ReadP.val_main_call1_v1, Cert.ReferenceIdeal.ReadP.val_main_v13, Cert.ReferenceIdeal.ReadP.val_main_v14, Cert.ReferenceIdeal.ReadP.val_main_v15, Cert.ReferenceIdeal.ReadP.val_main_c_6, Cert.ReferenceIdeal.ReadP.val_main_v16, Cert.ReferenceIdeal.ReadP.val_main_v17, Cert.ReferenceIdeal.ReadP.val_main_v18, Cert.ReferenceIdeal.ReadP.val_main_v19, Cert.ReferenceIdeal.ReadP.val_main_c_7, Cert.ReferenceIdeal.ReadP.val_main_v20, Cert.ReferenceIdeal.ReadP.val_main_v21, Cert.ReferenceIdeal.ReadP.val_main_c_8, Cert.ReferenceIdeal.ReadP.val_main_c_9, Cert.ReferenceIdeal.ReadP.val_main_call2_v0, Cert.ReferenceIdeal.ReadP.val_main_call2_v1, Cert.ReferenceIdeal.ReadP.val_main_v22, Cert.ReferenceIdeal.ReadP.val_main_c_10, Cert.ReferenceIdeal.ReadP.val_main_call3_v0, Cert.ReferenceIdeal.ReadP.val_main_v23, Cert.ReferenceIdeal.ReadP.val_main_v24, Cert.ReferenceIdeal.ReadP.val_main_v25, Cert.ReferenceIdeal.ReadP.val_main_c_11, Cert.ReferenceIdeal.ReadP.val_main_v26, Cert.ReferenceIdeal.ReadP.val_main_v27, Cert.ReferenceIdeal.ReadP.val_main_v28, Cert.ReferenceIdeal.ReadP.val_main_v29, Cert.ReferenceIdeal.ReadP.val_main_c_12, Cert.ReferenceIdeal.ReadP.val_main_v30, Cert.ReferenceIdeal.ReadP.val_main_v31, Cert.ReferenceIdeal.ReadP.val_main_v32, Cert.ReferenceIdeal.ReadP.val_main_v33, Cert.ReferenceIdeal.ReadP.val_main_c_13, Cert.ReferenceIdeal.ReadP.val_main_v34, Cert.ReferenceIdeal.ReadP.val_main_v35, Cert.ReferenceIdeal.ReadP.val_main_c_14, Cert.ReferenceIdeal.ReadP.val_main_c_15, Cert.ReferenceIdeal.ReadP.val_main_call4_v0, Cert.ReferenceIdeal.ReadP.val_main_call4_v1, Cert.ReferenceIdeal.ReadP.val_main_v36, Cert.ReferenceIdeal.ReadP.val_main_c_16, Cert.ReferenceIdeal.ReadP.val_main_call5_v0, Cert.ReferenceIdeal.ReadP.val_main_v37, Cert.ReferenceIdeal.ReadP.val_main_c_17, Cert.ReferenceIdeal.ReadP.val_main_call6_v0, Cert.ReferenceIdeal.ReadP.val_main_v38, Cert.ReferenceIdeal.ReadP.val_main_v39, Cert.ReferenceIdeal.ReadP.val_main_cst_18, Cert.ReferenceIdeal.ReadP.val_main_v40, Cert.ReferenceIdeal.ReadP.val_main_v41, Cert.ReferenceIdeal.ReadP.val_main_v42, Cert.ReferenceIdeal.ReadP.val_main_v43, Cert.ReferenceIdeal.ReadP.val_main_cst_19, Cert.ReferenceIdeal.ReadP.val_main_v44, Cert.ReferenceIdeal.ReadP.val_main_v45, Cert.ReferenceIdeal.ReadP.val_main_cst_20, Cert.ReferenceIdeal.ReadP.val_main_v46, Cert.ReferenceIdeal.ReadP.val_main_v47, Cert.ReferenceIdeal.ReadP.val_main_cst_21, Cert.ReferenceIdeal.ReadP.val_main_v48, Cert.ReferenceIdeal.ReadP.val_main_v49, Cert.ReferenceIdeal.ReadP.val_main_v50, Cert.ReferenceIdeal.ReadP.val_main_v51, Cert.ReferenceIdeal.ReadP.val_main_v52, Cert.ReferenceIdeal.ReadP.val_main_v53, Cert.ReferenceIdeal.ReadP.val_main_v54, Cert.ReferenceIdeal.ReadP.val_main_cst_22, Cert.ReferenceIdeal.ReadP.val_main_v55, Cert.ReferenceIdeal.ReadP.val_main_v56, Cert.ReferenceIdeal.ReadP.val_main_v57, Cert.ReferenceIdeal.ReadP.val_main_v58, Cert.ReferenceIdeal.ReadP.val_main_v59, Cert.ReferenceIdeal.ReadP.val_main_cst_23, Cert.ReferenceIdeal.ReadP.val_main_v60, Cert.ReferenceIdeal.ReadP.val_main_v61, Cert.ReferenceIdeal.ReadP.val_main_cst_24, Cert.ReferenceIdeal.ReadP.val_main_v62, Cert.ReferenceIdeal.ReadP.val_main_v63, Cert.ReferenceIdeal.ReadP.val_main_cst_25, Cert.ReferenceIdeal.ReadP.val_main_v64, Cert.ReferenceIdeal.ReadP.val_main_v65, Cert.ReferenceIdeal.ReadP.val_main_v66, Cert.ReferenceIdeal.ReadP.val_main_v67, Cert.ReferenceIdeal.ReadP.val_main_v68, Cert.ReferenceIdeal.ReadP.val_main_v69, Cert.ReferenceIdeal.ReadP.val_main_v70, Cert.ReferenceIdeal.ReadP.val_main_v71, Cert.ReferenceIdeal.ReadP.val_main_cst_26, Cert.ReferenceIdeal.ReadP.val_main_v72, Cert.ReferenceIdeal.ReadP.val_main_v73, Cert.ReferenceIdeal.ReadP.val_main_v74, Cert.ReferenceIdeal.ReadP.val_main_v75, Cert.ReferenceIdeal.ReadP.val_main_v76, Cert.ReferenceIdeal.ReadP.val_main_cst_27, Cert.ReferenceIdeal.ReadP.val_main_v77, Cert.ReferenceIdeal.ReadP.val_main_v78, Cert.ReferenceIdeal.ReadP.val_main_cst_28, Cert.ReferenceIdeal.ReadP.val_main_v79, Cert.ReferenceIdeal.ReadP.val_main_v80, Cert.ReferenceIdeal.ReadP.val_main_cst_29, Cert.ReferenceIdeal.ReadP.val_main_v81, Cert.ReferenceIdeal.ReadP.val_main_v82, Cert.ReferenceIdeal.ReadP.val_main_v83, Cert.ReferenceIdeal.ReadP.val_main_v84, Cert.ReferenceIdeal.ReadP.val_main_v85, Cert.ReferenceIdeal.ReadP.val_main_v86, Cert.ReferenceIdeal.ReadP.val_main_v87, Cert.ReferenceIdeal.ReadP.val_main_v88, Cert.ReferenceIdeal.ReadP.val_main_call7_v0, Cert.ReferenceIdeal.ReadP.val_main_call7_c, Cert.ReferenceIdeal.ReadP.val_main_call7_v1, Cert.ReferenceIdeal.ReadP.val_main_call7_v2, Cert.ReferenceIdeal.ReadP.val_main_call7_c_0, Cert.ReferenceIdeal.ReadP.val_main_call7_v3, Cert.ReferenceIdeal.ReadP.val_main_call7_v4, Cert.ReferenceIdeal.ReadP.val_main_call7_v5, Cert.ReferenceIdeal.ReadP.val_main_call7_v6, Cert.ReferenceIdeal.ReadP.val_main_call7_c_1, Cert.ReferenceIdeal.ReadP.val_main_call7_c_2, Cert.ReferenceIdeal.ReadP.val_main_call7_v7, Cert.ReferenceIdeal.ReadP.val_main_call7_v8, Cert.ReferenceIdeal.ReadP.val_main_call7_v9, Cert.ReferenceIdeal.ReadP.val_main_call7_v10, Cert.ReferenceIdeal.ReadP.val_main_call7_v11, Cert.ReferenceIdeal.ReadP.val_main_call7_v12, Cert.ReferenceIdeal.ReadP.val_main_call7_c_3, Cert.ReferenceIdeal.ReadP.val_main_call7_v13, Cert.ReferenceIdeal.ReadP.val_main_call7_v14, Cert.ReferenceIdeal.ReadP.val_main_call7_cst, Cert.ReferenceIdeal.ReadP.val_main_call7_v15, Cert.ReferenceIdeal.ReadP.val_main_v89, Cert.ReferenceIdeal.ReadP.val_main_v90, Cert.ReferenceIdeal.ReadP.val_main_v91, Cert.ReferenceIdeal.ReadP.val_main_v92, Cert.ReferenceIdeal.ReadP.val_main_v93, Cert.ReferenceIdeal.ReadP.val_main_call8_v0, Cert.ReferenceIdeal.ReadP.val_main_call8_c, Cert.ReferenceIdeal.ReadP.val_main_call8_v1, Cert.ReferenceIdeal.ReadP.val_main_call8_v2, Cert.ReferenceIdeal.ReadP.val_main_call8_c_0, Cert.ReferenceIdeal.ReadP.val_main_call8_v3, Cert.ReferenceIdeal.ReadP.val_main_call8_v4, Cert.ReferenceIdeal.ReadP.val_main_call8_v5, Cert.ReferenceIdeal.ReadP.val_main_call8_v6, Cert.ReferenceIdeal.ReadP.val_main_call8_c_1, Cert.ReferenceIdeal.ReadP.val_main_call8_c_2, Cert.ReferenceIdeal.ReadP.val_main_call8_v7, Cert.ReferenceIdeal.ReadP.val_main_call8_v8, Cert.ReferenceIdeal.ReadP.val_main_call8_v9, Cert.ReferenceIdeal.ReadP.val_main_call8_v10, Cert.ReferenceIdeal.ReadP.val_main_call8_v11, Cert.ReferenceIdeal.ReadP.val_main_call8_v12, Cert.ReferenceIdeal.ReadP.val_main_call8_c_3, Cert.ReferenceIdeal.ReadP.val_main_call8_v13, Cert.ReferenceIdeal.ReadP.val_main_call8_v14, Cert.ReferenceIdeal.ReadP.val_main_call8_cst, Cert.ReferenceIdeal.ReadP.val_main_call8_v15, Cert.ReferenceIdeal.ReadP.val_main_v94, Cert.ReferenceIdeal.ReadP.val_main_v95, Cert.ReferenceIdeal.ReadP.val_main_v96, Cert.ReferenceIdeal.ReadP.val_main_v97, Cert.ReferenceIdeal.ReadP.val_main_v98, Cert.ReferenceIdeal.ReadP.val_main_v99, Cert.ReferenceIdeal.ReadP.val_main_v100, Cert.ReferenceIdeal.ReadP.val_main_v101, Cert.ReferenceIdeal.ReadP.val_main_v102, Cert.ReferenceIdeal.ReadP.val_main_cst_30, Cert.ReferenceIdeal.ReadP.val_main_v103, Cert.ReferenceIdeal.ReadP.val_main_cst_31, Cert.ReferenceIdeal.ReadP.val_main_v104, Cert.ReferenceIdeal.ReadP.val_main_v105]
  rfl

end Cert.RefLoss

end
-- ==== Proof.Claims.lean ====
/-
  The five claims.

  The two kernel programs' frames are the generated frame theorems; the reference's frame is its run with the result
  dropped; the idealization rewrote nothing. For the value claim: the kernel program ends with the tail of its output
  array, which on labels that are all zero or one is the mean loss with the stroke indicator "some label is one"
  (the labels' domain comes from the precondition's last conjunct); the reference ends with the fold of its operations,
  which is the last stage of its one-operation-at-a-time reading, which is the same mean of the same argument arrays.
-/
import proofs.«134005_j8323646620405_1_alg».proof.Defs
import proofs.«134005_j8323646620405_1_alg».proof.Proof.Gen.Kernel.Frame
import proofs.«134005_j8323646620405_1_alg».proof.Proof.KernelMean
import proofs.«134005_j8323646620405_1_alg».proof.Proof.RefValue
import proofs.«134005_j8323646620405_1_alg».proof.Proof.RefFold

noncomputable section

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

theorem algebraic : Cert.algebraic_KernelIdeal_ReferenceIdeal := by
  intro m ρ m' ρ' hpre hagree
  refine ⟨fun c => Cert.KernelValue.tail (F := Ideal) (Cert.KernelValue.outArr m c),
    Cert.KernelValue.run (F := Ideal) m ρ, ?_⟩
  refine (θ_run Cert.ReferenceIdeal.defs _ _).mono (fun _ h c => ⟨(h c).1.trans ?_, (h c).2⟩)
    (Cert.ReferenceIdeal.ValueP.run (F := Ideal) m' ρ')
  have hb := Cert.Labels.binary_of_pre _ _ _ _ _ _ (hpre c)
  rw [Cert.RefLoss.fold_eq_stage m' c, Cert.RefLoss.ref_value, (hagree c).1, (hagree c).2.1, (hagree c).2.2.1,
    (hagree c).2.2.2.1, (hagree c).2.2.2.2.1, (hagree c).2.2.2.2.2]
  exact (Cert.KernelValue.kernel_value m c hb).symm

end Cert.Proof.Claims

end
-- ==== Proof.lean ====
/-
  The certificate's proof: a tennis-stroke loss (weighted binary and categorical cross-entropies of five predicted
  probability groups against nine binary labels per position), averaged over 64 x 32768 positions, computed by a
  kernel that accumulates 32 x 128 tiles over a (2, 256) grid and by a plain array program; equal at the extended reals
  when every float input is finite and every label is zero or one. The claims are proved in Proof/Claims.lean; here
  they are put together under the witnesses of the programs' stated facts.
-/
import proofs.«134005_j8323646620405_1_alg».proof.Defs
import proofs.«134005_j8323646620405_1_alg».proof.Proof.Gen.Kernel
import proofs.«134005_j8323646620405_1_alg».proof.Proof.Gen.Kernel.Skeleton
import proofs.«134005_j8323646620405_1_alg».proof.Proof.Gen.Kernel.Launch
import proofs.«134005_j8323646620405_1_alg».proof.Proof.Gen.Kernel.Points
import proofs.«134005_j8323646620405_1_alg».proof.Proof.Gen.Kernel.Frame
import proofs.«134005_j8323646620405_1_alg».proof.Proof.Gen.KernelIdeal
import proofs.«134005_j8323646620405_1_alg».proof.Proof.Gen.KernelIdeal.Skeleton
import proofs.«134005_j8323646620405_1_alg».proof.Proof.Gen.KernelIdeal.Launch
import proofs.«134005_j8323646620405_1_alg».proof.Proof.Gen.KernelIdeal.Points
import proofs.«134005_j8323646620405_1_alg».proof.Proof.Gen.KernelIdeal.Frame
import proofs.«134005_j8323646620405_1_alg».proof.Proof.Gen.ReferenceIdeal
import proofs.«134005_j8323646620405_1_alg».proof.Proof.Gen.Pre_finite_inputs
import proofs.«134005_j8323646620405_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
